-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x768 : Shape := ⟨3, ![64, 128, 768]⟩
abbrev S64x100x2048 : Shape := ⟨3, ![64, 100, 2048]⟩
abbrev S64x1x128x100 : Shape := ⟨4, ![64, 1, 128, 100]⟩
abbrev S768x2048 : Shape := ⟨2, ![768, 2048]⟩
abbrev S768 : Shape := ⟨1, ![768]⟩
abbrev S1x768x768 : Shape := ⟨3, ![1, 768, 768]⟩
abbrev S1 : Shape := ⟨1, ![1]⟩
abbrev S_ : Shape := ⟨0, ![]⟩

class Facts : Prop where
  bcast_S_S64x128x768 : S_.BroadcastsInDim S64x128x768 (![] : Fin 0 → Fin S64x128x768.rank)
  reducesTo_S64x128x768_S_d0_1_2 : S64x128x768.ReducesTo [0, 1, 2] S_
  h_S_ : 0 < S_.numel
  bcast_S_S64x100x2048 : S_.BroadcastsInDim S64x100x2048 (![] : Fin 0 → Fin S64x100x2048.rank)
  reducesTo_S64x100x2048_S_d0_1_2 : S64x100x2048.ReducesTo [0, 1, 2] S_
  bcast_S_S64x1x128x100 : S_.BroadcastsInDim S64x1x128x100 (![] : Fin 0 → Fin S64x1x128x100.rank)
  reducesTo_S64x1x128x100_S_d0_1_2_3 : S64x1x128x100.ReducesTo [0, 1, 2, 3] S_
  bcast_S_S768x2048 : S_.BroadcastsInDim S768x2048 (![] : Fin 0 → Fin S768x2048.rank)
  reducesTo_S768x2048_S_d0_1 : S768x2048.ReducesTo [0, 1] S_
  bcast_S_S768 : S_.BroadcastsInDim S768 (![] : Fin 0 → Fin S768.rank)
  reducesTo_S768_S_d0 : S768.ReducesTo [0] S_
  bcast_S_S1x768x768 : S_.BroadcastsInDim S1x768x768 (![] : Fin 0 → Fin S1x768x768.rank)
  reducesTo_S1x768x768_S_d0_1_2 : S1x768x768.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S768 .f32) (main_arg5 : FVec F S1x768x768 .f32) (main_arg6 : FVec F S1 .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1x768x768 .f32 := Host.absf main_arg5
  let main_cst_8 : FVec F S_ .f32 := constant S_ .f32 0x7F800000#32
  let main_v25 : FVec F S1x768x768 .f32 := broadcastInDim S1x768x768 ![] bcast_S_S1x768x768 main_cst_8
  let main_v26 : IVec S1x768x768 1 := cmpf .olt main_v24 main_v25
  let main_c_9 : IVec S_ 1 := constantI S_ 1 1#1
  let main_v27 : IVec S_ 1 := (fun x v => Host.reduce IntOp.andi x v reducesTo_S1x768x768_S_d0_1_2 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S64x128x768 .f32) (main_arg1 : FVec F S64x100x2048 .f32) (main_arg2 : FVec F S64x1x128x100 .f32) (main_arg3 : FVec F S768x2048 .f32) (main_arg4 : FVec F S768 .f32) (main_arg5 : FVec F S1x768x768 .f32) (main_arg6 : FVec F S1 .f32) : IVec S_ 1 :=
  let main_v0 : FVec F S64x128x768 .f32 := Host.absf main_arg0
  let main_cst : FVec F S_ .f32 := constant S_ .f32 0x7F800000#32
  let main_v1 : FVec F S64x128x768 .f32 := broadcastInDim S64x128x768 ![] bcast_S_S64x128x768 main_cst
  let main_v2 : IVec S64x128x768 1 := cmpf .olt main_v0 main_v1
  let main_c : IVec S_ 1 := constantI S_ 1 1#1
  let main_v3 : IVec S_ 1 := (fun x v => Host.reduce IntOp.andi x v reducesTo_S64x128x768_S_d0_1_2 h_S_) main_v2 main_c
  let main_v4 : FVec F S64x100x2048 .f32 := Host.absf main_arg1
  let main_cst_0 : FVec F S_ .f32 := constant S_ .f32 0x7F800000#32
  let main_v5 : FVec F S64x100x2048 .f32 := broadcastInDim S64x100x2048 ![] bcast_S_S64x100x2048 main_cst_0
  let main_v6 : IVec S64x100x2048 1 := cmpf .olt main_v4 main_v5
  let main_c_1 : IVec S_ 1 := constantI S_ 1 1#1
  let main_v7 : IVec S_ 1 := (fun x v => Host.reduce IntOp.andi x v reducesTo_S64x100x2048_S_d0_1_2 h_S_) main_v6 main_c_1
  let main_v8 : IVec S_ 1 := andi main_v3 main_v7
  let main_v9 : FVec F S64x1x128x100 .f32 := Host.absf main_arg2
  let main_cst_2 : FVec F S_ .f32 := constant S_ .f32 0x7F800000#32
  let main_v10 : FVec F S64x1x128x100 .f32 := broadcastInDim S64x1x128x100 ![] bcast_S_S64x1x128x100 main_cst_2
  let main_v11 : IVec S64x1x128x100 1 := cmpf .olt main_v9 main_v10
  let main_c_3 : IVec S_ 1 := constantI S_ 1 1#1
  let main_v12 : IVec S_ 1 := (fun x v => Host.reduce IntOp.andi x v reducesTo_S64x1x128x100_S_d0_1_2_3 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg4 main_arg5 main_arg6 main_v13 main_v16
-- ==== Kernel.lean ====
abbrev S64x128x768 : Shape := ⟨3, ![64, 128, 768]⟩
abbrev S64x100x2048 : Shape := ⟨3, ![64, 100, 2048]⟩
abbrev S64x1x128x100 : Shape := ⟨4, ![64, 1, 128, 100]⟩
abbrev S768x2048 : Shape := ⟨2, ![768, 2048]⟩
abbrev S768 : Shape := ⟨1, ![768]⟩
abbrev S1x768x768 : Shape := ⟨3, ![1, 768, 768]⟩
abbrev S1 : Shape := ⟨1, ![1]⟩
abbrev S8192x768 : Shape := ⟨2, ![8192, 768]⟩
abbrev S6400x2048 : Shape := ⟨2, ![6400, 2048]⟩
abbrev S64x128x100 : Shape := ⟨3, ![64, 128, 100]⟩
abbrev S768x768 : Shape := ⟨2, ![768, 768]⟩
abbrev S1024x768 : Shape := ⟨2, ![1024, 768]⟩
abbrev S800x2048 : Shape := ⟨2, ![800, 2048]⟩
abbrev S8x128x100 : Shape := ⟨3, ![8, 128, 100]⟩
abbrev S800x768 : Shape := ⟨2, ![800, 768]⟩
abbrev S1x768 : Shape := ⟨2, ![1, 768]⟩
abbrev S128x768 : Shape := ⟨2, ![128, 768]⟩
abbrev S100x768 : Shape := ⟨2, ![100, 768]⟩
abbrev S128x100 : Shape := ⟨2, ![128, 100]⟩
abbrev S1x128x100 : Shape := ⟨3, ![1, 128, 100]⟩

abbrev nBuf : Space → Nat
  | .hbm => 12
  | .vmem => 12
  | .smem => 0
  | _ => 0

abbrev bufTy : (tb : Table) → Fin (tcTables nBuf tb) → BufTy
  | .hbm, ⟨0, _⟩ => ⟨S64x128x768, .f32⟩
  | .hbm, ⟨1, _⟩ => ⟨S64x100x2048, .f32⟩
  | .hbm, ⟨2, _⟩ => ⟨S64x1x128x100, .f32⟩
  | .hbm, ⟨3, _⟩ => ⟨S768x2048, .f32⟩
  | .hbm, ⟨4, _⟩ => ⟨S768, .f32⟩
  | .hbm, ⟨5, _⟩ => ⟨S1x768x768, .f32⟩
  | .hbm, ⟨6, _⟩ => ⟨S1, .f32⟩
  | .hbm, ⟨7, _⟩ => ⟨S8192x768, .f32⟩
  | .hbm, ⟨8, _⟩ => ⟨S6400x2048, .f32⟩
  | .hbm, ⟨9, _⟩ => ⟨S64x128x100, .f32⟩
  | .hbm, ⟨10, _⟩ => ⟨S768x768, .f32⟩
  | .hbm, ⟨11, _⟩ => ⟨S64x128x100, .f32⟩
  | .local _ .vmem, ⟨0, _⟩ => ⟨S1024x768, .f32⟩
  | .local _ .vmem, ⟨1, _⟩ => ⟨S1024x768, .f32⟩
  | .local _ .vmem, ⟨2, _⟩ => ⟨S800x2048, .f32⟩
  | .local _ .vmem, ⟨3, _⟩ => ⟨S800x2048, .f32⟩
  | .local _ .vmem, ⟨4, _⟩ => ⟨S768x2048, .f32⟩
  | .local _ .vmem, ⟨5, _⟩ => ⟨S768, .f32⟩
  | .local _ .vmem, ⟨6, _⟩ => ⟨S768x768, .f32⟩
  | .local _ .vmem, ⟨7, _⟩ => ⟨S1, .f32⟩
  | .local _ .vmem, ⟨8, _⟩ => ⟨S8x128x100, .f32⟩
  | .local _ .vmem, ⟨9, _⟩ => ⟨S8x128x100, .f32⟩
  | .local _ .vmem, ⟨10, _⟩ => ⟨S8x128x100, .f32⟩
  | .local _ .vmem, ⟨11, _⟩ => ⟨S8x128x100, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x128x768_S8192x768 : S64x128x768.ShapeCasts S8192x768
  shapeCasts_S64x100x2048_S6400x2048 : S64x100x2048.ShapeCasts S6400x2048
  shapeCasts_S64x1x128x100_S64x128x100 : S64x1x128x100.ShapeCasts S64x128x100
  shapeCasts_S1x768x768_S768x768 : S1x768x768.ShapeCasts S768x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S800x2048_S800x2048_0_0 : ∀ a, (![0, 0] : Fin 2 → Nat) a + S800x2048.size a ≤ S800x2048.size a
  h_S800x2048 : 0 < S800x2048.numel
  shapeCasts_S800x2048_S800x2048 : S800x2048.ShapeCasts S800x2048
  inb_S768x2048_S768x2048_0_0 : ∀ a, (![0, 0] : Fin 2 → Nat) a + S768x2048.size a ≤ S768x2048.size a
  h_S768x2048 : 0 < S768x2048.numel
  bitsLt_bf16_f32 : FTy.bits .bf16 < FTy.bits .f32
  inb_S768_S768_0 : ∀ a, (![0] : Fin 1 → Nat) a + S768.size a ≤ S768.size a
  h_S768 : 0 < S768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1_S1_0 : ∀ a, (![0] : Fin 1 → Nat) a + S1.size a ≤ S1.size a
  h_S1 : 0 < S1.numel
  inpos_S1_p0 : ∀ a, (![0] : Fin 1 → Nat) a < S1.size a
  inb_S8x128x100_S8x128x100_0_0_0 : ∀ a, (![0, 0, 0] : Fin 3 → Nat) a + S8x128x100.size a ≤ S8x128x100.size a
  h_S8x128x100 : 0 < S8x128x100.numel
  shapeCasts_S8x128x100_S8x128x100 : S8x128x100.ShapeCasts S8x128x100
  shapeCasts_S768_S1x768 : S768.ShapeCasts S1x768
  broadcasts_S1x768_S800x768 : S1x768.Broadcasts S800x768
  slices_S1024x768_o0_0_S128x768 : S1024x768.Slices ![0, 0] S128x768
  slices_S800x768_o0_0_S100x768 : S800x768.Slices ![0, 0] S100x768
  slices_S8x128x100_o0_0_0_S1x128x100 : S8x128x100.Slices ![0, 0, 0] S1x128x100
  shapeCasts_S1x128x100_S128x100 : S1x128x100.ShapeCasts S128x100
  inb_S8x128x100_S1x128x100_0_0_0 : ∀ a, (![0, 0, 0] : Fin 3 → Nat) a + S1x128x100.size a ≤ S8x128x100.size a
  h_S1x128x100 : 0 < S1x128x100.numel
  shapeCasts_S128x100_S1x128x100 : S128x100.ShapeCasts S1x128x100
  slices_S1024x768_o128_0_S128x768 : S1024x768.Slices ![128, 0] S128x768
  slices_S800x768_o100_0_S100x768 : S800x768.Slices ![100, 0] S100x768
  slices_S8x128x100_o1_0_0_S1x128x100 : S8x128x100.Slices ![1, 0, 0] S1x128x100
  inb_S8x128x100_S1x128x100_1_0_0 : ∀ a, (![1, 0, 0] : Fin 3 → Nat) a + S1x128x100.size a ≤ S8x128x100.size a
  slices_S1024x768_o256_0_S128x768 : S1024x768.Slices ![256, 0] S128x768
  slices_S800x768_o200_0_S100x768 : S800x768.Slices ![200, 0] S100x768
  slices_S8x128x100_o2_0_0_S1x128x100 : S8x128x100.Slices ![2, 0, 0] S1x128x100
  inb_S8x128x100_S1x128x100_2_0_0 : ∀ a, (![2, 0, 0] : Fin 3 → Nat) a + S1x128x100.size a ≤ S8x128x100.size a
  slices_S1024x768_o384_0_S128x768 : S1024x768.Slices ![384, 0] S128x768
  slices_S800x768_o300_0_S100x768 : S800x768.Slices ![300, 0] S100x768
  slices_S8x128x100_o3_0_0_S1x128x100 : S8x128x100.Slices ![3, 0, 0] S1x128x100
  inb_S8x128x100_S1x128x100_3_0_0 : ∀ a, (![3, 0, 0] : Fin 3 → Nat) a + S1x128x100.size a ≤ S8x128x100.size a
  slices_S1024x768_o512_0_S128x768 : S1024x768.Slices ![512, 0] S128x768
  slices_S800x768_o400_0_S100x768 : S800x768.Slices ![400, 0] S100x768
  slices_S8x128x100_o4_0_0_S1x128x100 : S8x128x100.Slices ![4, 0, 0] S1x128x100
  inb_S8x128x100_S1x128x100_4_0_0 : ∀ a, (![4, 0, 0] : Fin 3 → Nat) a + S1x128x100.size a ≤ S8x128x100.size a
  slices_S1024x768_o640_0_S128x768 : S1024x768.Slices ![640, 0] S128x768
  slices_S800x768_o500_0_S100x768 : S800x768.Slices ![500, 0] S100x768
  slices_S8x128x100_o5_0_0_S1x128x100 : S8x128x100.Slices ![5, 0, 0] S1x128x100
  inb_S8x128x100_S1x128x100_5_0_0 : ∀ a, (![5, 0, 0] : Fin 3 → Nat) a + S1x128x100.size a ≤ S8x128x100.size a
  slices_S1024x768_o768_0_S128x768 : S1024x768.Slices ![768, 0] S128x768
  slices_S800x768_o600_0_S100x768 : S800x768.Slices ![600, 0] S100x768
  slices_S8x128x100_o6_0_0_S1x128x100 : S8x128x100.Slices ![6, 0, 0] S1x128x100
  inb_S8x128x100_S1x128x100_6_0_0 : ∀ a, (![6, 0, 0] : Fin 3 → Nat) a + S1x128x100.size a ≤ S8x128x100.size a
  slices_S1024x768_o896_0_S128x768 : S1024x768.Slices ![896, 0] S128x768
  slices_S800x768_o700_0_S100x768 : S800x768.Slices ![700, 0] S100x768
  slices_S8x128x100_o7_0_0_S1x128x100 : S8x128x100.Slices ![7, 0, 0] S1x128x100
  inb_S8x128x100_S1x128x100_7_0_0 : ∀ a, (![7, 0, 0] : Fin 3 → Nat) a + S1x128x100.size a ≤ S8x128x100.size a
  dot_S800x2048_S768x2048_S800x768_1_1_0_0_n_n_wf : DotDims.WF S800x2048 S768x2048 S800x768 [1] [1] [0] [0] [] []
  dot_S1024x768_S768x768_S1024x768_1_0_0_1_n_n_wf : DotDims.WF S1024x768 S768x768 S1024x768 [1] [0] [0] [1] [] []
  dot_S128x768_S100x768_S128x100_1_1_0_0_n_n_wf : DotDims.WF S128x768 S100x768 S128x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x2048.size a ≤ S6400x2048.size a
  hwx0_1 : ∀ i : grid0.Coords, EltTy.bits .f32 = 32 ∨ (Rect.block (s := S6400x2048) S800x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S768x2048.size a
  hwx0_2 : ∀ i : grid0.Coords, EltTy.bits .f32 = 32 ∨ (Rect.block (s := S768x2048) S768x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x100.size a ≤ S64x128x100.size a
  hwx0_6 : ∀ i : grid0.Coords, EltTy.bits .f32 = 32 ∨ (Rect.block (s := S64x128x100) S8x128x100.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x100.size a ≤ S64x128x100.size a
  hwx0_7 : ∀ i : grid0.Coords, EltTy.bits .f32 = 32 ∨ (Rect.block (s := S64x128x100) S8x128x100.size (cc0_transform_7 i) (hinb0_7 i)).WholeWords (EltTy.packing .f32)

variable [Facts₀]

def dot_S800x2048_S768x2048_S800x768_1_1_0_0_n_n : DotDims S800x2048 S768x2048 S800x768 where
  lhsContracting := [1]
  rhsContracting := [1]
  lhsNonContracting := [0]
  rhsNonContracting := [0]
  lhsBatch := []
  rhsBatch := []
  wf := dot_S800x2048_S768x2048_S800x768_1_1_0_0_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S128x768_S100x768_S128x100_1_1_0_0_n_n : DotDims S128x768 S100x768 S128x100 where
  lhsContracting := [1]
  rhsContracting := [1]
  lhsNonContracting := [0]
  rhsNonContracting := [0]
  lhsBatch := []
  rhsBatch := []
  wf := dot_S128x768_S100x768_S128x100_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S800x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x128x100.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x128x100.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128x768 : Shape := ⟨3, ![64, 128, 768]⟩
abbrev S64x100x2048 : Shape := ⟨3, ![64, 100, 2048]⟩
abbrev S64x1x128x100 : Shape := ⟨4, ![64, 1, 128, 100]⟩
abbrev S768x2048 : Shape := ⟨2, ![768, 2048]⟩
abbrev S768 : Shape := ⟨1, ![768]⟩
abbrev S1x768x768 : Shape := ⟨3, ![1, 768, 768]⟩
abbrev S1 : Shape := ⟨1, ![1]⟩
abbrev S64x100x768 : Shape := ⟨3, ![64, 100, 768]⟩
abbrev S1x1x768 : Shape := ⟨3, ![1, 1, 768]⟩
abbrev S768x768 : Shape := ⟨2, ![768, 768]⟩
abbrev S64x128x100 : Shape := ⟨3, ![64, 128, 100]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x128x768, .f32⟩
  | .hbm, ⟨1, _⟩ => ⟨S64x100x2048, .f32⟩
  | .hbm, ⟨2, _⟩ => ⟨S64x1x128x100, .f32⟩
  | .hbm, ⟨3, _⟩ => ⟨S768x2048, .f32⟩
  | .hbm, ⟨4, _⟩ => ⟨S768, .f32⟩
  | .hbm, ⟨5, _⟩ => ⟨S1x768x768, .f32⟩
  | .hbm, ⟨6, _⟩ => ⟨S1, .f32⟩
  | .hbm, ⟨7, _⟩ => ⟨S64x100x768, .f32⟩
  | .hbm, ⟨8, _⟩ => ⟨S1x1x768, .f32⟩
  | .hbm, ⟨9, _⟩ => ⟨S64x100x768, .f32⟩
  | .hbm, ⟨10, _⟩ => ⟨S64x100x768, .f32⟩
  | .hbm, ⟨11, _⟩ => ⟨S768x768, .f32⟩
  | .hbm, ⟨12, _⟩ => ⟨S64x100x768, .f32⟩
  | .hbm, ⟨13, _⟩ => ⟨S64x128x100, .f32⟩
  | .hbm, ⟨14, _⟩ => ⟨S_, .f32⟩
  | .hbm, ⟨15, _⟩ => ⟨S64x128x100, .f32⟩
  | .hbm, ⟨16, _⟩ => ⟨S64x128x100, .f32⟩
  | .hbm, ⟨17, _⟩ => ⟨S64x128x100, .f32⟩
  | .hbm, ⟨18, _⟩ => ⟨S64x128x100, .f32⟩
  | _, _ => ⟨S64x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x100x768_0_1_2 : S1x1x768.BroadcastsInDim S64x100x768 (![0, 1, 2] : Fin 3 → Fin S64x100x768.rank)
  shapeCasts_S1x768x768_S768x768 : S1x768x768.ShapeCasts S768x768
  shapeCasts_S1_S_ : S1.ShapeCasts S_
  bcast_S_S64x128x100 : S_.BroadcastsInDim S64x128x100 (![] : Fin 0 → Fin S64x128x100.rank)
  shapeCasts_S64x1x128x100_S64x128x100 : S64x1x128x100.ShapeCasts S64x128x100
  dot_S64x100x2048_S768x2048_S64x100x768_2_1_01_0_n_n_wf : DotDims.WF S64x100x2048 S768x2048 S64x100x768 [2] [1] [0, 1] [0] [] []
  dot_S64x100x768_S768x768_S64x100x768_2_1_01_0_n_n_wf : DotDims.WF S64x100x768 S768x768 S64x100x768 [2] [1] [0, 1] [0] [] []
  dot_S64x128x768_S64x100x768_S64x128x100_2_2_1_1_0_0_wf : DotDims.WF S64x128x768 S64x100x768 S64x128x100 [2] [2] [1] [1] [0] [0]

variable [Facts₀]

def dot_S64x100x2048_S768x2048_S64x100x768_2_1_01_0_n_n : DotDims S64x100x2048 S768x2048 S64x100x768 where
  lhsContracting := [2]
  rhsContracting := [1]
  lhsNonContracting := [0, 1]
  rhsNonContracting := [0]
  lhsBatch := []
  rhsBatch := []
  wf := dot_S64x100x2048_S768x2048_S64x100x768_2_1_01_0_n_n_wf
def dot_S64x100x768_S768x768_S64x100x768_2_1_01_0_n_n : DotDims S64x100x768 S768x768 S64x100x768 where
  lhsContracting := [2]
  rhsContracting := [1]
  lhsNonContracting := [0, 1]
  rhsNonContracting := [0]
  lhsBatch := []
  rhsBatch := []
  wf := dot_S64x100x768_S768x768_S64x100x768_2_1_01_0_n_n_wf
def dot_S64x128x768_S64x100x768_S64x128x100_2_2_1_1_0_0 : DotDims S64x128x768 S64x100x768 S64x128x100 where
  lhsContracting := [2]
  rhsContracting := [2]
  lhsNonContracting := [1]
  rhsNonContracting := [1]
  lhsBatch := [0]
  rhsBatch := [0]
  wf := dot_S64x128x768_S64x100x768_S64x128x100_2_2_1_1_0_0_wf

class Facts : Prop extends Facts₀ where

variable [Facts]
-- ==== Proof.LibCoeSum.lean ====
/-
  Finite sums of real numbers read in the extended reals.

  The extended reals add a top and a bottom element to the real line. On the real numbers inside them, addition and
  multiplication are the real ones, so a finite sum of real numbers, each read as an extended real, is the real sum
  read as an extended real; and a finite sum of products of such numbers (a dot product) is the real dot product read
  as an extended real. These two facts carry a computation on finite entries out of the extended reals into the real
  numbers, where the ring laws hold without side conditions.
-/
import Mathlib.Data.EReal.Inv
import Mathlib.Algebra.BigOperators.Group.Finset.Basic

open scoped BigOperators

namespace Cert.CoeSum

/-- A finite sum of real numbers, each read as an extended real, is the real sum read as an extended real. -/
theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- A dot product of two real vectors, computed on their entries read as extended reals, is the real dot product
    read as an extended real: each product of two reals is the real product, and then the sum is the real sum. -/
theorem coe_dot {ι : Type*} (s : Finset ι) (x w : ι → ℝ) :
    ∑ k ∈ s, ((x k : ℝ) : EReal) * ((w k : ℝ) : EReal) = ((∑ k ∈ s, x k * w k : ℝ) : EReal) := by
  rw [← coe_sum]
  exact Finset.sum_congr rfl fun k _ => (EReal.coe_mul _ _).symm

end Cert.CoeSum
-- ==== Proof.ScoreOrder.lean ====
/-
  The two orders of a bilinear score.

  A token row `T`, a square weight `W` and a projected region row `P` give the score
  `∑ d e, T d · W d e · P e`. It can be contracted in two orders: first `T` against `W` and the result against `P`,
  `∑ e, (∑ d, T d · W d e) · P e`, or first `W` against `P` and `T` against the result,
  `∑ d, T d · (∑ e, P e · W d e)`. Over the real numbers the two agree: multiplication distributes over the finite
  sums and the double sum may be taken in either order. On the extended reals distributivity fails at the infinite
  elements, so the statement there asks that every entry be a real number; the projected row `P` is itself a dot
  product plus a bias, `P e = ∑ i, X i · K e i + b e`, of real entries and hence real.
-/
import proofs.«172141_j21792664060129_2_alg».proof.Proof.LibCoeSum
import Mathlib.Algebra.BigOperators.Ring.Finset
import Mathlib.Tactic.Ring

open scoped BigOperators

namespace Cert.ScoreOrder

/-- Over the real numbers the score contracted weight-against-region first equals the score contracted
    token-against-weight first. -/
theorem swap_real {D E : Type*} [Fintype D] [Fintype E] (T : D → ℝ) (W : D → E → ℝ) (P : E → ℝ) :
    ∑ d, T d * ∑ e, P e * W d e = ∑ e, (∑ d, T d * W d e) * P e := by
  simp only [Finset.mul_sum, Finset.sum_mul]
  rw [Finset.sum_comm]
  exact Finset.sum_congr rfl fun e _ => Finset.sum_congr rfl fun d _ => by ring

/-- The same on the extended reals, for entries that are all real numbers, with the region row given as the
    projection `∑ i, X i · K e i + b e` of a raw row `X`. -/
theorem swap {D E I : Type*} [Fintype D] [Fintype E] [Fintype I]
    (T : D → EReal) (W : D → E → EReal) (X : I → EReal) (K : E → I → EReal) (b : E → EReal)
    (hT : ∀ d, ∃ r : ℝ, T d = (r : EReal)) (hW : ∀ d e, ∃ r : ℝ, W d e = (r : EReal))
    (hX : ∀ i, ∃ r : ℝ, X i = (r : EReal)) (hK : ∀ e i, ∃ r : ℝ, K e i = (r : EReal))
    (hb : ∀ e, ∃ r : ℝ, b e = (r : EReal)) :
    ∑ d, T d * ∑ e, (∑ i, X i * K e i + b e) * W d e
      = ∑ e, (∑ d, T d * W d e) * (∑ i, X i * K e i + b e) := by
  choose T' hT using hT
  choose W' hW using hW
  choose X' hX using hX
  choose K' hK using hK
  choose b' hb using hb
  simp only [hT, hW, hX, hK, hb, Cert.CoeSum.coe_dot, ← EReal.coe_add, ← EReal.coe_mul, Cert.CoeSum.coe_sum]
  exact congrArg Real.toEReal (swap_real T' W' fun e => ∑ i, X' i * K' e i + b' e)

end Cert.ScoreOrder
-- ==== Proof.Score.lean ====
/-
  The pairwise token–region score, as one function of the seven argument arrays.

  For batch `b`, token `t` and region `r` the result is
    `score b t r + bil_b[0] + mask[b, 0, t, r]`,
  where the region features are first projected to the text width,
    `proj e = ∑ i, encI[b, r, i] · K_w[e, i] + K_b[e]`,
  and the score is the bilinear form `∑ d e, encT[b, t, d] · bil_w[0, d, e] · proj e`.
  The double sum is written in two orders, over a token row `T`, a weight `W`, a raw region row `X`, a projection
  matrix `K` and its bias `c`: `formK` contracts the token row against the weight first and the result against
  the projected region row; `formR` contracts the weight against the projected region row first and the token row
  against the result. On real entries the two agree (`Cert.ScoreOrder.swap`). `outK` and `outR` are the two
  whole results, the rows taken from the argument arrays.
-/
import Idealize.ShloMosaic.Lib.ValueIdx
import proofs.«172141_j21792664060129_2_alg».proof.Proof.ScoreOrder

noncomputable section

open scoped BigOperators

namespace Cert.Score

open Idealize.ShloMosaic Idealize.ShloMosaic.ValueIdx

/-- The bilinear score of a token row and a raw region row, token-against-weight first. -/
def formK (T : Fin 768 → EReal) (W : Fin 768 → Fin 768 → EReal) (X : Fin 2048 → EReal)
    (K : Fin 768 → Fin 2048 → EReal) (c : Fin 768 → EReal) : EReal :=
  ∑ e : Fin 768, (∑ d : Fin 768, T d * W d e) * ((∑ i : Fin 2048, X i * K e i) + c e)

/-- The same score, weight-against-region first. -/
def formR (T : Fin 768 → EReal) (W : Fin 768 → Fin 768 → EReal) (X : Fin 2048 → EReal)
    (K : Fin 768 → Fin 2048 → EReal) (c : Fin 768 → EReal) : EReal :=
  ∑ d : Fin 768, T d * ∑ e : Fin 768, ((∑ i : Fin 2048, X i * K e i) + c e) * W d e

/-- On real entries the two orders give the same score. -/
theorem formR_eq_formK (T : Fin 768 → EReal) (W : Fin 768 → Fin 768 → EReal) (X : Fin 2048 → EReal)
    (K : Fin 768 → Fin 2048 → EReal) (c : Fin 768 → EReal)
    (hT : ∀ d, ∃ r : ℝ, T d = (r : EReal)) (hW : ∀ d e, ∃ r : ℝ, W d e = (r : EReal))
    (hX : ∀ i, ∃ r : ℝ, X i = (r : EReal)) (hK : ∀ e i, ∃ r : ℝ, K e i = (r : EReal))
    (hc : ∀ e, ∃ r : ℝ, c e = (r : EReal)) : formR T W X K c = formK T W X K c :=
  Cert.ScoreOrder.swap T W X K c hT hW hX hK hc

/-- The argument arrays' shapes and the result's. -/
abbrev ShT : Shape := ⟨3, ![64, 128, 768]⟩
abbrev ShI : Shape := ⟨3, ![64, 100, 2048]⟩
abbrev ShM : Shape := ⟨4, ![64, 1, 128, 100]⟩
abbrev ShK : Shape := ⟨2, ![768, 2048]⟩
abbrev ShB : Shape := ⟨1, ![768]⟩
abbrev ShW : Shape := ⟨3, ![1, 768, 768]⟩
abbrev Sh1 : Shape := ⟨1, ![1]⟩
abbrev ShO : Shape := ⟨3, ![64, 128, 100]⟩

/-- An array all of whose entries are real numbers. -/
def AllReal {s : Shape} (x : s.Idx → EReal) : Prop := ∀ i, ∃ r : ℝ, x i = (r : EReal)

variable (encT : ShT.Idx → EReal) (encI : ShI.Idx → EReal) (mask : ShM.Idx → EReal) (Kw : ShK.Idx → EReal)
  (Kb : ShB.Idx → EReal) (bilw : ShW.Idx → EReal) (bilb : Sh1.Idx → EReal)

/-- The result at `(b, t, r)`, token-against-weight first. -/
def atK (b : Fin 64) (t : Fin 128) (r : Fin 100) : EReal :=
  formK (fun d => encT (ix3 b t d)) (fun d e => bilw (ix3 (0 : Fin 1) d e)) (fun i => encI (ix3 b r i))
      (fun e i => Kw (ix2 e i)) (fun e => Kb (ix1 e))
    + bilb (ix1 (0 : Fin 1)) + mask (ix4 b (0 : Fin 1) t r)

/-- The result at `(b, t, r)`, weight-against-region first. -/
def atR (b : Fin 64) (t : Fin 128) (r : Fin 100) : EReal :=
  formR (fun d => encT (ix3 b t d)) (fun d e => bilw (ix3 (0 : Fin 1) d e)) (fun i => encI (ix3 b r i))
      (fun e i => Kw (ix2 e i)) (fun e => Kb (ix1 e))
    + bilb (ix1 (0 : Fin 1)) + mask (ix4 b (0 : Fin 1) t r)

/-- On real entries the two orders give the same result. -/
theorem atR_eq_atK (hT : AllReal encT) (hI : AllReal encI) (hK : AllReal Kw) (hB : AllReal Kb)
    (hW : AllReal bilw) (b : Fin 64) (t : Fin 128) (r : Fin 100) :
    atR encT encI mask Kw Kb bilw bilb b t r = atK encT encI mask Kw Kb bilw bilb b t r := by
  unfold atR atK
  rw [formR_eq_formK _ _ _ _ _ (fun d => hT _) (fun d e => hW _) (fun i => hI _) (fun e i => hK _) (fun e => hB _)]

/-- The whole result, token-against-weight first. -/
def outK : ShO.Idx → EReal := fun j => atK encT encI mask Kw Kb bilw bilb (j 0) (j 1) (j 2)

/-- The whole result, weight-against-region first. -/
def outR : ShO.Idx → EReal := fun j => atR encT encI mask Kw Kb bilw bilb (j 0) (j 1) (j 2)

/-- On real entries the two whole results are one function. -/
theorem outR_eq_outK (hT : AllReal encT) (hI : AllReal encI) (hK : AllReal Kw) (hB : AllReal Kb) (hW : AllReal bilw) :
    outR encT encI mask Kw Kb bilw bilb = outK encT encI mask Kw Kb bilw bilb :=
  funext fun j => atR_eq_atK encT encI mask Kw Kb bilw bilb hT hI hK hB hW (j 0) (j 1) (j 2)

end Cert.Score

end
-- ==== Proof.KernelBlock.lean ====
/-
  What the kernel body leaves in one output block, as one function of the block index.

  A grid point handles eight batches at once. The body forms two shared matrix products over all eight —
  `tokW[p, e] = ∑ d, encT_blk[p, d] · bil_w[d, e]` on the 1024 stacked token rows and
  `proj[p, e] = ∑ i, encI_blk[p, i] · K_w[e, i] + K_b[e]` on the 800 stacked region rows (the roundings to bf16 on
  the way in are the identity on extended reals) — and then, batch by batch, multiplies the batch's 128 rows of
  `tokW` against its 100 rows of `proj`, adds the scalar bias and the batch's slab of the mask, and stores the
  `[1, 128, 100]` result at the batch's position. The eight stored pieces tile the `[8, 128, 100]` block, and each
  is the same function of the block index `(k, t, r)`: the bilinear score of token row `k·128 + t` and region row
  `k·100 + r` (`Cert.Score.formK`), plus the bias, plus the mask at `(k, t, r)`. So the block the body leaves
  is that function (`blockOut`).
-/
import proofs.«172141_j21792664060129_2_alg».proof.Proof.Gen.KernelIdeal.Frame
import proofs.«172141_j21792664060129_2_alg».proof.Proof.Score
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The three matrix products at an index

Each contracts ONE axis; the operand indices at output index `(p, q)` and contraction coordinate `k` are read off
the dimension numbers. -/

theorem mmTokW_l0 (j : S1024x768.Idx) (q : dot_S1024x768_S768x768_S1024x768_1_0_0_1_n_n.contr.Idx) : (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem mmTokW_l1 (j : S1024x768.Idx) (q : dot_S1024x768_S768x768_S1024x768_1_0_0_1_n_n.contr.Idx) : (dot_S1024x768_S768x768_S1024x768_1_0_0_1_n_n.lhsIdx j q 1).val = (q ⟨0, by decide⟩).val :=
  dot_S1024x768_S768x768_S1024x768_1_0_0_1_n_n.lhsIdx_val_of_single rfl j q
theorem mmTokW_rn (j : S1024x768.Idx) (q : dot_S1024x768_S768x768_S1024x768_1_0_0_1_n_n.contr.Idx) : (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl
theorem mmTokW_rc (j : S1024x768.Idx) (q : dot_S1024x768_S768x768_S1024x768_1_0_0_1_n_n.contr.Idx) : (dot_S1024x768_S768x768_S1024x768_1_0_0_1_n_n.rhsIdx j q 0).val = (q ⟨0, by decide⟩).val :=
  dot_S1024x768_S768x768_S1024x768_1_0_0_1_n_n.rhsIdx_val_of_single rfl j q

theorem mmProj_l0 (j : S800x768.Idx) (q : dot_S800x2048_S768x2048_S800x768_1_1_0_0_n_n.contr.Idx) : (dot_S800x2048_S768x2048_S800x768_1_1_0_0_n_n.lhsIdx j q 0).val = (j 0).val := by
  unfold DotDims.lhsIdx
  rw [dif_neg (show ¬(0 : Fin S800x2048.rank) ∈ dot_S800x2048_S768x2048_S800x768_1_1_0_0_n_n.lhsBatch by decide), dif_pos (show (0 : Fin S800x2048.rank) ∈ dot_S800x2048_S768x2048_S800x768_1_1_0_0_n_n.lhsNonContracting by decide)]
  rfl
theorem mmProj_l1 (j : S800x768.Idx) (q : dot_S800x2048_S768x2048_S800x768_1_1_0_0_n_n.contr.Idx) : (dot_S800x2048_S768x2048_S800x768_1_1_0_0_n_n.lhsIdx j q 1).val = (q ⟨0, by decide⟩).val :=
  dot_S800x2048_S768x2048_S800x768_1_1_0_0_n_n.lhsIdx_val_of_single rfl j q
theorem mmProj_rn (j : S800x768.Idx) (q : dot_S800x2048_S768x2048_S800x768_1_1_0_0_n_n.contr.Idx) : (dot_S800x2048_S768x2048_S800x768_1_1_0_0_n_n.rhsIdx j q 0).val = (j 1).val := by
  unfold DotDims.rhsIdx
  rw [dif_neg (show ¬(0 : Fin S768x2048.rank) ∈ dot_S800x2048_S768x2048_S800x768_1_1_0_0_n_n.rhsBatch by decide), dif_pos (show (0 : Fin S768x2048.rank) ∈ dot_S800x2048_S768x2048_S800x768_1_1_0_0_n_n.rhsNonContracting by decide)]
  rfl
theorem mmProj_rc (j : S800x768.Idx) (q : dot_S800x2048_S768x2048_S800x768_1_1_0_0_n_n.contr.Idx) : (dot_S800x2048_S768x2048_S800x768_1_1_0_0_n_n.rhsIdx j q 1).val = (q ⟨0, by decide⟩).val :=
  dot_S800x2048_S768x2048_S800x768_1_1_0_0_n_n.rhsIdx_val_of_single rfl j q

theorem mmPair_l0 (j : S128x100.Idx) (q : dot_S128x768_S100x768_S128x100_1_1_0_0_n_n.contr.Idx) : (dot_S128x768_S100x768_S128x100_1_1_0_0_n_n.lhsIdx j q 0).val = (j 0).val := by
  unfold DotDims.lhsIdx
  rw [dif_neg (show ¬(0 : Fin S128x768.rank) ∈ dot_S128x768_S100x768_S128x100_1_1_0_0_n_n.lhsBatch by decide), dif_pos (show (0 : Fin S128x768.rank) ∈ dot_S128x768_S100x768_S128x100_1_1_0_0_n_n.lhsNonContracting by decide)]
  rfl
theorem mmPair_l1 (j : S128x100.Idx) (q : dot_S128x768_S100x768_S128x100_1_1_0_0_n_n.contr.Idx) : (dot_S128x768_S100x768_S128x100_1_1_0_0_n_n.lhsIdx j q 1).val = (q ⟨0, by decide⟩).val :=
  dot_S128x768_S100x768_S128x100_1_1_0_0_n_n.lhsIdx_val_of_single rfl j q
theorem mmPair_rn (j : S128x100.Idx) (q : dot_S128x768_S100x768_S128x100_1_1_0_0_n_n.contr.Idx) : (dot_S128x768_S100x768_S128x100_1_1_0_0_n_n.rhsIdx j q 0).val = (j 1).val := by
  unfold DotDims.rhsIdx
  rw [dif_neg (show ¬(0 : Fin S100x768.rank) ∈ dot_S128x768_S100x768_S128x100_1_1_0_0_n_n.rhsBatch by decide), dif_pos (show (0 : Fin S100x768.rank) ∈ dot_S128x768_S100x768_S128x100_1_1_0_0_n_n.rhsNonContracting by decide)]
  rfl
theorem mmPair_rc (j : S128x100.Idx) (q : dot_S128x768_S100x768_S128x100_1_1_0_0_n_n.contr.Idx) : (dot_S128x768_S100x768_S128x100_1_1_0_0_n_n.rhsIdx j q 1).val = (q ⟨0, by decide⟩).val :=
  dot_S128x768_S100x768_S128x100_1_1_0_0_n_n.rhsIdx_val_of_single rfl j q

/-- Token rows times the square weight, into a zero accumulator: entry `(p, q)` is `∑ k, l[p, k] · r[k, q]`. -/
theorem mmTokW {φ₁ φ₂ : FTy} (l : FVec Ideal S1024x768 φ₁) (r : FVec Ideal S768x768 φ₂) (p : Fin 1024) (q : Fin 768) :
    matmul dot_S1024x768_S768x768_S1024x768_1_0_0_1_n_n none l r (constant (F := Ideal) S1024x768 .f32 0x00000000#32) (ix2 p q)
      = ∑ k : Fin 768, l (ix2 p k) * r (ix2 k q) := by
  refine (Ideal.matmul_constant_zero_apply dot_S1024x768_S768x768_S1024x768_1_0_0_1_n_n none l r (ix2 p q)).trans ?_
  rw [← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p q) ((contrEquiv1 dot_S1024x768_S768x768_S1024x768_1_0_0_1_n_n 768 rfl rfl).symm k) = ix2 p k := funext fun a => Fin.ext (by
    match a with
    | ⟨0, _⟩ => exact mmTokW_l0 _ _
    | ⟨1, _⟩ => exact (mmTokW_l1 _ _).trans hk)
  have er : dot_S1024x768_S768x768_S1024x768_1_0_0_1_n_n.rhsIdx (ix2 p q) ((contrEquiv1 dot_S1024x768_S768x768_S1024x768_1_0_0_1_n_n 768 rfl rfl).symm k) = ix2 k q := funext fun a => Fin.ext (by
    match a with
    | ⟨0, _⟩ => exact (mmTokW_rc _ _).trans hk
    | ⟨1, _⟩ => exact mmTokW_rn _ _)
  rw [el, er]

/-- Region rows against the projection matrix's rows, into a zero accumulator: entry `(p, q)` is `∑ k, l[p, k] · r[q, k]`. -/
theorem mmProj {φ₁ φ₂ : FTy} (l : FVec Ideal S800x2048 φ₁) (r : FVec Ideal S768x2048 φ₂) (p : Fin 800) (q : Fin 768) :
    matmul dot_S800x2048_S768x2048_S800x768_1_1_0_0_n_n none l r (constant (F := Ideal) S800x768 .f32 0x00000000#32) (ix2 p q)
      = ∑ k : Fin 2048, l (ix2 p k) * r (ix2 q k) := by
  refine (Ideal.matmul_constant_zero_apply dot_S800x2048_S768x2048_S800x768_1_1_0_0_n_n none l r (ix2 p q)).trans ?_
  rw [← Equiv.sum_comp (contrEquiv1 dot_S800x2048_S768x2048_S800x768_1_1_0_0_n_n 2048 rfl rfl).symm]
  refine Finset.sum_congr rfl fun k _ => ?_
  have hk := contrEquiv1_symm_val dot_S800x2048_S768x2048_S800x768_1_1_0_0_n_n 2048 rfl rfl k
  have el : dot_S800x2048_S768x2048_S800x768_1_1_0_0_n_n.lhsIdx (ix2 p q) ((contrEquiv1 dot_S800x2048_S768x2048_S800x768_1_1_0_0_n_n 2048 rfl rfl).symm k) = ix2 p k := funext fun a => Fin.ext (by
    match a with
    | ⟨0, _⟩ => exact mmProj_l0 _ _
    | ⟨1, _⟩ => exact (mmProj_l1 _ _).trans hk)
  have er : dot_S800x2048_S768x2048_S800x768_1_1_0_0_n_n.rhsIdx (ix2 p q) ((contrEquiv1 dot_S800x2048_S768x2048_S800x768_1_1_0_0_n_n 2048 rfl rfl).symm k) = ix2 q k := funext fun a => Fin.ext (by
    match a with
    | ⟨0, _⟩ => exact mmProj_rn _ _
    | ⟨1, _⟩ => exact (mmProj_rc _ _).trans hk)
  rw [el, er]

/-- One batch's token rows against its projected region rows, into a zero accumulator: entry `(p, q)` is `∑ k, l[p, k] · r[q, k]`. -/
theorem mmPair {φ₁ φ₂ : FTy} (l : FVec Ideal S128x768 φ₁) (r : FVec Ideal S100x768 φ₂) (p : Fin 128) (q : Fin 100) :
    matmul dot_S128x768_S100x768_S128x100_1_1_0_0_n_n (some .fp32) l r (constant (F := Ideal) S128x100 .f32 0x00000000#32) (ix2 p q)
      = ∑ k : Fin 768, l (ix2 p k) * r (ix2 q k) := by
  refine (Ideal.matmul_constant_zero_apply dot_S128x768_S100x768_S128x100_1_1_0_0_n_n (some .fp32) l r (ix2 p q)).trans ?_
  rw [← Equiv.sum_comp (contrEquiv1 dot_S128x768_S100x768_S128x100_1_1_0_0_n_n 768 rfl rfl).symm]
  refine Finset.sum_congr rfl fun k _ => ?_
  have hk := contrEquiv1_symm_val dot_S128x768_S100x768_S128x100_1_1_0_0_n_n 768 rfl rfl k
  have el : dot_S128x768_S100x768_S128x100_1_1_0_0_n_n.lhsIdx (ix2 p q) ((contrEquiv1 dot_S128x768_S100x768_S128x100_1_1_0_0_n_n 768 rfl rfl).symm k) = ix2 p k := funext fun a => Fin.ext (by
    match a with
    | ⟨0, _⟩ => exact mmPair_l0 _ _
    | ⟨1, _⟩ => exact (mmPair_l1 _ _).trans hk)
  have er : dot_S128x768_S100x768_S128x100_1_1_0_0_n_n.rhsIdx (ix2 p q) ((contrEquiv1 dot_S128x768_S100x768_S128x100_1_1_0_0_n_n 768 rfl rfl).symm k) = ix2 q k := funext fun a => Fin.ext (by
    match a with
    | ⟨0, _⟩ => exact mmPair_rn _ _
    | ⟨1, _⟩ => exact (mmPair_rc _ _).trans hk)
  rw [el, er]

/-! ## The two shared products, as the body computes them -/

/-- The stacked token rows times the weight: `tokW[p, e] = ∑ d, x0[p, d] · x4[d, e]` (the same-shape casts and the
    roundings on the way in change nothing at the extended reals). -/
theorem tokW_apply (x0 : Vec Ideal S1024x768 .f32) (x4 : Vec Ideal S768x768 .f32) (p : Fin 1024) (e : Fin 768) :
    k0_pay7 x0 x4 (ix2 p e) = ∑ d : Fin 768, x0 (ix2 p d) * x4 (ix2 d e) := by
  unfold k0_pay7
  refine (mmTokW _ _ p e).trans (Finset.sum_congr rfl fun d _ => ?_)
  show shapeCast S1024x768 x0 shapeCasts_S1024x768_S1024x768 (ix2 p d)
      * shapeCast S768x768 x4 shapeCasts_S768x768_S768x768 (ix2 d e) = _
  rw [shapeCast_self, shapeCast_self]

/-- The stacked region rows projected: `proj[p, e] = ∑ i, x1[p, i] · x2[e, i] + x3[e]` (the bias row is broadcast
    down the rows). -/
theorem proj_apply (x1 : Vec Ideal S800x2048 .f32) (x2 : Vec Ideal S768x2048 .f32) (x3 : Vec Ideal S768 .f32)
    (p : Fin 800) (e : Fin 768) :
    k0_pay6 x1 x2 x3 (ix2 p e) = (∑ i : Fin 2048, x1 (ix2 p i) * x2 (ix2 e i)) + x3 (ix1 e) := by
  unfold k0_pay6
  refine (addf_apply _ _ _).trans (congrArg₂ (· + ·) ?_ ?_)
  · refine (mmProj _ _ p e).trans (Finset.sum_congr rfl fun i _ => ?_)
    show shapeCast S800x2048 x1 shapeCasts_S800x2048_S800x2048 (ix2 p i) * x2 (ix2 e i) = _
    rw [shapeCast_self]
  · refine (broadcastTo_1b_ab_apply _ _ p e).trans ?_
    exact shapeCast_a_1a_apply x3 _ (0 : Fin 1) e

/-- The scalar bias is the one entry of its block. -/
theorem bias_eq (x5 : Vec Ideal S1 .f32) : k0_pay4 x5 = x5 (ix1 (0 : Fin 1)) := by
  unfold k0_pay4 extractAt
  exact congrArg x5 (funext fun a => Fin.ext (by match a with | ⟨0, _⟩ => rfl))

/-- The mask block is used as loaded. -/
theorem mask_eq (x6 : Vec Ideal S8x128x100 .f32) : k0_pay5 x6 = x6 := by
  unfold k0_pay5
  exact shapeCast_self _ _

/-! ## One batch's stored piece -/

/-- What the body stores for the batch whose token rows start at `oT`, region rows at `oP` and mask slab at `oM`:
    the batch's rows of the two shared products multiplied, plus the bias, plus the mask slab, as a
    `[1, 128, 100]` piece. -/
def piece (oT oP oM : Nat) (hT : S1024x768.Slices ![oT, 0] S128x768) (hP : S800x768.Slices ![oP, 0] S100x768)
    (hM : S8x128x100.Slices ![oM, 0, 0] S1x128x100) (v11 : Ideal .f32) (v13 : FVec Ideal S8x128x100 .f32)
    (v18 : FVec Ideal S800x768 .f32) (v20 : FVec Ideal S1024x768 .f32) : FVec Ideal S1x128x100 .f32 :=
  shapeCast S1x128x100
    (addf (addf (matmul dot_S128x768_S100x768_S128x100_1_1_0_0_n_n (some .fp32) (extractStridedSlice S128x768 ![oT, 0] v20 hT)
        (extractStridedSlice S100x768 ![oP, 0] v18 hP) (constant S128x100 .f32 0x00000000#32)) (broadcast S128x100 v11))
      (shapeCast S128x100 (extractStridedSlice S1x128x100 ![oM, 0, 0] v13 hM) shapeCasts_S1x128x100_S128x100))
    shapeCasts_S128x100_S1x128x100

/-- The piece at `(u, t, r)`: token row `oT + t` of `v20` against region row `oP + r` of `v18`, plus the bias, plus
    the mask at `(oM, t, r)`. -/
theorem piece_apply (oT oP oM : Nat) (hT : S1024x768.Slices ![oT, 0] S128x768) (hP : S800x768.Slices ![oP, 0] S100x768)
    (hM : S8x128x100.Slices ![oM, 0, 0] S1x128x100) (v11 : Ideal .f32) (v13 : FVec Ideal S8x128x100 .f32)
    (v18 : FVec Ideal S800x768 .f32) (v20 : FVec Ideal S1024x768 .f32) (u : Fin 1) (t : Fin 128) (r : Fin 100)
    (pT : Fin 1024) (pP : Fin 800) (pM : Fin 8) (hpT : pT.val = oT + t.val) (hpP : pP.val = oP + r.val)
    (hpM : pM.val = oM) :
    piece oT oP oM hT hP hM v11 v13 v18 v20 (ix3 u t r)
      = (∑ e : Fin 768, v20 (ix2 pT e) * v18 (ix2 pP e)) + v11 + v13 (ix3 pM t r) := by
  unfold piece
  refine (shapeCast_ab_1ab_apply _ _ u t r).trans ?_
  refine (addf_apply _ _ _).trans (congrArg₂ (· + ·) ((addf_apply _ _ _).trans (congrArg₂ (· + ·) ?_ rfl)) ?_)
  · refine (mmPair _ _ t r).trans (Finset.sum_congr rfl fun e _ => ?_)
    rw [slice2_axis0_apply oT v20 hT t e pT hpT, slice2_axis0_apply oP v18 hP r e pP hpP]
  · refine (shapeCast_1ab_ab_apply _ _ t r).trans ?_
    refine extractStridedSlice_apply _ v13 hM (ix3 (0 : Fin 1) t r) (ix3 pM t r) fun a => ?_
    match a with
    | ⟨0, _⟩ => show pM.val = oM + 0; omega
    | ⟨1, _⟩ => show t.val = 0 + t.val; omega
    | ⟨2, _⟩ => show r.val = 0 + r.val; omega

/-! ## The eight stored payloads are the eight batches' pieces

The body's text is cut into parts at fixed statement counts, so the eight stores' payloads are spelt in four
different ways over the shared values; each is, by unfolding, the piece of its batch. -/

section Payloads
variable (v0 : Vec Ideal S1024x768 .f32) (v2 : Vec Ideal S800x2048 .f32) (v4 : Vec Ideal S768x2048 .f32)
  (v6 : Vec Ideal S768 .f32) (v7 : Vec Ideal S768x768 .f32) (v10 : Vec Ideal S1 .f32) (v12 : Vec Ideal S8x128x100 .f32)
  (v11 : Ideal .f32) (v13 : FVec Ideal S8x128x100 .f32) (v18 : FVec Ideal S800x768 .f32) (v20 : FVec Ideal S1024x768 .f32)

theorem pay_b0 : k0_pay8 v0 v2 v4 v6 v7 v10 v12
    = piece 0 0 0 slices_S1024x768_o0_0_S128x768 slices_S800x768_o0_0_S100x768 slices_S8x128x100_o0_0_0_S1x128x100
        (k0_pay4 v10) (k0_pay5 v12) (k0_pay6 v2 v4 v6) (k0_pay7 v0 v7) := rfl
theorem pay_b1 : k0_pay11 (k0_pay9 v0 v2 v4 v6 v7 v10) (k0_pay10 v12)
    = piece 128 100 1 slices_S1024x768_o128_0_S128x768 slices_S800x768_o100_0_S100x768 slices_S8x128x100_o1_0_0_S1x128x100
        (k0_pay4 v10) (k0_pay5 v12) (k0_pay6 v2 v4 v6) (k0_pay7 v0 v7) := rfl
theorem pay_b2 : k0_pay12 v11 v13 v18 v20
    = piece 256 200 2 slices_S1024x768_o256_0_S128x768 slices_S800x768_o200_0_S100x768 slices_S8x128x100_o2_0_0_S1x128x100
        v11 v13 v18 v20 := rfl
theorem pay_b3 : k0_pay13 v11 v13 v18 v20
    = piece 384 300 3 slices_S1024x768_o384_0_S128x768 slices_S800x768_o300_0_S100x768 slices_S8x128x100_o3_0_0_S1x128x100
        v11 v13 v18 v20 := rfl
theorem pay_b4 : k0_pay14 v11 v13 v18 v20
    = piece 512 400 4 slices_S1024x768_o512_0_S128x768 slices_S800x768_o400_0_S100x768 slices_S8x128x100_o4_0_0_S1x128x100
        v11 v13 v18 v20 := rfl
theorem pay_b5 : k0_pay1 v11 v13 (k0_pay15 v20) (k0_pay16 v18) (constant S128x100 .f32 0x00000000#32)
    = piece 640 500 5 slices_S1024x768_o640_0_S128x768 slices_S800x768_o500_0_S100x768 slices_S8x128x100_o5_0_0_S1x128x100
        v11 v13 v18 v20 := rfl
theorem pay_b6 : k0_pay2 v11 v13 v18 v20
    = piece 768 600 6 slices_S1024x768_o768_0_S128x768 slices_S800x768_o600_0_S100x768 slices_S8x128x100_o6_0_0_S1x128x100
        v11 v13 v18 v20 := rfl
theorem pay_b7 : k0_pay3 v11 v13 v18 v20
    = piece 896 700 7 slices_S1024x768_o896_0_S128x768 slices_S800x768_o700_0_S100x768 slices_S8x128x100_o7_0_0_S1x128x100
        v11 v13 v18 v20 := rfl

end Payloads

/-! ## The block as one function of its index -/

/-- Batch `k`'s token `t` is row `k·128 + t` of the stacked token rows … -/
def tokRow (k : Fin 8) (t : Fin 128) : Fin 1024 := ⟨k.val * 128 + t.val, by have := k.isLt; have := t.isLt; omega⟩
/-- … and its region `r` is row `k·100 + r` of the stacked region rows. -/
def regRow (k : Fin 8) (r : Fin 100) : Fin 800 := ⟨k.val * 100 + r.val, by have := k.isLt; have := r.isLt; omega⟩

section Block
variable (x0 : Vec Ideal S1024x768 .f32) (x1 : Vec Ideal S800x2048 .f32) (x2 : Vec Ideal S768x2048 .f32)
  (x3 : Vec Ideal S768 .f32) (x4 : Vec Ideal S768x768 .f32) (x5 : Vec Ideal S1 .f32) (x6 : Vec Ideal S8x128x100 .f32)

/-- The output block at `(k, t, r)`, from the seven input blocks: the score of batch `k`'s token `t` and region `r`,
    plus the bias, plus the mask there. -/
def blockAt (k : Fin 8) (t : Fin 128) (r : Fin 100) : EReal :=
  Cert.Score.formK (fun d => x0 (ix2 (tokRow k t) d)) (fun d e => x4 (ix2 d e)) (fun i => x1 (ix2 (regRow k r) i))
      (fun e i => x2 (ix2 e i)) (fun e => x3 (ix1 e))
    + x5 (ix1 (0 : Fin 1)) + x6 (ix3 k t r)

/-- The whole output block. -/
def blockOut : S8x128x100.Idx → EReal := fun y => blockAt x0 x1 x2 x3 x4 x5 x6 (y 0) (y 1) (y 2)

/-- Batch `k`'s piece, over the shared values the body computed from the input blocks, is the block at `(k, ·, ·)`. -/
theorem piece_block (k : Fin 8) (oT oP oM : Nat) (hoT : oT = k.val * 128) (hoP : oP = k.val * 100) (hoM : oM = k.val)
    (hT : S1024x768.Slices ![oT, 0] S128x768) (hP : S800x768.Slices ![oP, 0] S100x768)
    (hM : S8x128x100.Slices ![oM, 0, 0] S1x128x100) (u : Fin 1) (t : Fin 128) (r : Fin 100) :
    piece oT oP oM hT hP hM (k0_pay4 x5) (k0_pay5 x6) (k0_pay6 x1 x2 x3) (k0_pay7 x0 x4) (ix3 u t r)
      = blockAt x0 x1 x2 x3 x4 x5 x6 k t r := by
  rw [piece_apply oT oP oM hT hP hM _ _ _ _ u t r (tokRow k t) (regRow k r) k
    (by show k.val * 128 + t.val = oT + t.val; omega) (by show k.val * 100 + r.val = oP + r.val; omega) (by omega)]
  simp only [tokW_apply, proj_apply, bias_eq, mask_eq]
  rfl

/-- The same with the piece's index any index of its rectangle, placed in the block. -/
theorem piece_in_block (k : Fin 8) (oT oP : Nat) (hoT : oT = k.val * 128) (hoP : oP = k.val * 100)
    (hT : S1024x768.Slices ![oT, 0] S128x768) (hP : S800x768.Slices ![oP, 0] S100x768)
    (hM : S8x128x100.Slices ![k.val, 0, 0] S1x128x100)
    (inb : ∀ a, (![k.val, 0, 0] : Fin 3 → Nat) a + S1x128x100.size a ≤ S8x128x100.size a) (x : S1x128x100.Idx) :
    piece oT oP k.val hT hP hM (k0_pay4 x5) (k0_pay5 x6) (k0_pay6 x1 x2 x3) (k0_pay7 x0 x4) x
      = blockOut x0 x1 x2 x3 x4 x5 x6 ((Rect.unit (s := S8x128x100) ![k.val, 0, 0] S1x128x100.size inb).emb x) := by
  obtain ⟨u, t, r, rfl⟩ : ∃ (u : Fin 1) (t : Fin 128) (r : Fin 100), x = ix3 u t r := ⟨x 0, x 1, x 2, eq_ix3 x⟩
  have he : (Rect.unit (s := S8x128x100) ![k.val, 0, 0] S1x128x100.size inb).emb (ix3 u t r) = ix3 k t r :=
    funext fun a => Fin.ext (by
      have hu : u.val = 0 := by omega
      match a with
      | ⟨0, _⟩ => show k.val + 1 * u.val = k.val; omega
      | ⟨1, _⟩ => show 0 + 1 * t.val = t.val; omega
      | ⟨2, _⟩ => show 0 + 1 * r.val = r.val; omega)
  rw [he]
  exact piece_block x0 x1 x2 x3 x4 x5 x6 k oT oP k.val hoT hoP rfl hT hP hM u t r

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 :=
  funext fun a => by match a with | ⟨0, _⟩ => rfl | ⟨1, _⟩ => rfl | ⟨2, _⟩ => rfl

/-- WHAT THE BODY LEAVES in the output block: the eight stored pieces tile it and each is its part of `blockOut`. -/
theorem out_eq : out0_7 (F := Ideal) x0 x1 x2 x3 x4 x5 x6 = blockOut x0 x1 x2 x3 x4 x5 x6 := by
  funext y
  unfold out0_7
  rw [View.ld_unit_zero (S := S1024x768) hz2 _ x0, View.ld_unit_zero (S := S800x2048) hz2 _ x1,
    View.ld_unit_zero (S := S768x2048) hz2 _ x2, View.ld_unit_zero (S := S768) hz1 _ x3,
    View.ld_unit_zero (S := S768x768) hz2 _ x4, View.ld_unit_zero (S := S1) hz1 _ x5,
    View.ld_unit_zero (S := S8x128x100) hz3 _ x6]
  refine View.canon_apply_of_pieces (Val := Elt Ideal) (e := .f32) (blockOut x0 x1 x2 x3 x4 x5 x6) _ ?_ y (cover0_7 _ _ _ _ _ _ _ _ y)
  intro p hp
  simp only [List.mem_cons, List.not_mem_nil, or_false] at hp
  rcases hp with rfl | rfl | rfl | rfl | rfl | rfl | rfl | rfl
  · exact fun x => (congrFun (pay_b7 _ _ _ _) x).trans (piece_in_block x0 x1 x2 x3 x4 x5 x6 7 896 700 rfl rfl slices_S1024x768_o896_0_S128x768 slices_S800x768_o700_0_S100x768 slices_S8x128x100_o7_0_0_S1x128x100 inb_S8x128x100_S1x128x100_7_0_0 x)
  · exact fun x => (congrFun (pay_b6 _ _ _ _) x).trans (piece_in_block x0 x1 x2 x3 x4 x5 x6 6 768 600 rfl rfl slices_S1024x768_o768_0_S128x768 slices_S800x768_o600_0_S100x768 slices_S8x128x100_o6_0_0_S1x128x100 inb_S8x128x100_S1x128x100_6_0_0 x)
  · exact fun x => (congrFun (pay_b5 _ _ _ _) x).trans (piece_in_block x0 x1 x2 x3 x4 x5 x6 5 640 500 rfl rfl slices_S1024x768_o640_0_S128x768 slices_S800x768_o500_0_S100x768 slices_S8x128x100_o5_0_0_S1x128x100 inb_S8x128x100_S1x128x100_5_0_0 x)
  · exact fun x => (congrFun (pay_b4 _ _ _ _) x).trans (piece_in_block x0 x1 x2 x3 x4 x5 x6 4 512 400 rfl rfl slices_S1024x768_o512_0_S128x768 slices_S800x768_o400_0_S100x768 slices_S8x128x100_o4_0_0_S1x128x100 inb_S8x128x100_S1x128x100_4_0_0 x)
  · exact fun x => (congrFun (pay_b3 _ _ _ _) x).trans (piece_in_block x0 x1 x2 x3 x4 x5 x6 3 384 300 rfl rfl slices_S1024x768_o384_0_S128x768 slices_S800x768_o300_0_S100x768 slices_S8x128x100_o3_0_0_S1x128x100 inb_S8x128x100_S1x128x100_3_0_0 x)
  · exact fun x => (congrFun (pay_b2 _ _ _ _) x).trans (piece_in_block x0 x1 x2 x3 x4 x5 x6 2 256 200 rfl rfl slices_S1024x768_o256_0_S128x768 slices_S800x768_o200_0_S100x768 slices_S8x128x100_o2_0_0_S1x128x100 inb_S8x128x100_S1x128x100_2_0_0 x)
  · exact fun x => (congrFun (pay_b1 _ _ _ _ _ _ _) x).trans (piece_in_block x0 x1 x2 x3 x4 x5 x6 1 128 100 rfl rfl slices_S1024x768_o128_0_S128x768 slices_S800x768_o100_0_S100x768 slices_S8x128x100_o1_0_0_S1x128x100 inb_S8x128x100_S1x128x100_1_0_0 x)
  · exact fun x => (congrFun (pay_b0 _ _ _ _ _ _ _) x).trans (piece_in_block x0 x1 x2 x3 x4 x5 x6 0 0 0 rfl rfl slices_S1024x768_o0_0_S128x768 slices_S800x768_o0_0_S100x768 slices_S8x128x100_o0_0_0_S1x128x100 inb_S8x128x100_S1x128x100_0_0_0 x)

end Block

end Cert.KernelIdeal.Block

end
-- ==== Proof.EntryArrays.lean ====
/-
  The arrays the kernel region finds, in terms of the program's arguments.

  Before the region the program only re-lays four of its arguments, keeping every entry's row-major position: the
  token features `[64, 128, 768]` as `[8192, 768]` (row `b·128 + t` is token `t` of batch `b`), the region features
  `[64, 100, 2048]` as `[6400, 2048]` (row `b·100 + r` is region `r` of batch `b`), the mask `[64, 1, 128, 100]` as
  `[64, 128, 100]` and the weight `[1, 768, 768]` as `[768, 768]` (a unit axis dropped in both). The projection
  matrix, its bias and the scalar bias reach the region as they are.
-/
import proofs.«172141_j21792664060129_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## What each re-laid array is -/

theorem V_v0 (c : Dev nD) : (V m c main_v0 : S8192x768.Idx → EReal)
    = shapeCast S8192x768 (m ((c : Thread nD τ).loc main_arg0)) shapeCasts_S64x128x768_S8192x768 := by
  dsimp only [Gen.V, Gen.hostOps0]; after_results; rfl

theorem V_v1 (c : Dev nD) : (V m c main_v1 : S6400x2048.Idx → EReal)
    = shapeCast S6400x2048 (m ((c : Thread nD τ).loc main_arg1)) shapeCasts_S64x100x2048_S6400x2048 := by
  dsimp only [Gen.V, Gen.hostOps0]; after_results; rfl

theorem V_v2 (c : Dev nD) : (V m c main_v2 : S64x128x100.Idx → EReal)
    = shapeCast S64x128x100 (m ((c : Thread nD τ).loc main_arg2)) shapeCasts_S64x1x128x100_S64x128x100 := by
  dsimp only [Gen.V, Gen.hostOps0]; after_results; rfl

theorem V_v3 (c : Dev nD) : (V m c main_v3 : S768x768.Idx → EReal)
    = shapeCast S768x768 (m ((c : Thread nD τ).loc main_arg5)) shapeCasts_S1x768x768_S768x768 := by
  dsimp only [Gen.V, Gen.hostOps0]; after_results; rfl

/-! ## The re-laid arrays read by coordinates -/

/-- Row `b·128 + t` of the flattened token features is token `t` of batch `b`. -/
theorem tokens_apply (a0 : S64x128x768.Idx → EReal) (h : S64x128x768.ShapeCasts S8192x768) (p : Fin 8192) (b : Fin 64)
    (t : Fin 128) (d : Fin 768) (hp : p.val = b.val * 128 + t.val) :
    shapeCast S8192x768 a0 h (ix2 p d) = a0 (ix3 b t d) :=
  shapeCast_apply a0 h _ _ (by
    rw [Shape.rowMajor_val_three, Shape.rowMajor_val_two]
    show (b.val * 128 + t.val) * 768 + d.val = p.val * 768 + d.val
    rw [hp])

/-- Row `b·100 + r` of the flattened region features is region `r` of batch `b`. -/
theorem regions_apply (a1 : S64x100x2048.Idx → EReal) (h : S64x100x2048.ShapeCasts S6400x2048) (p : Fin 6400) (b : Fin 64)
    (r : Fin 100) (i : Fin 2048) (hp : p.val = b.val * 100 + r.val) :
    shapeCast S6400x2048 a1 h (ix2 p i) = a1 (ix3 b r i) :=
  shapeCast_apply a1 h _ _ (by
    rw [Shape.rowMajor_val_three, Shape.rowMajor_val_two]
    show (b.val * 100 + r.val) * 2048 + i.val = p.val * 2048 + i.val
    rw [hp])

/-- The mask with its unit axis dropped. -/
theorem mask_apply (a2 : S64x1x128x100.Idx → EReal) (h : S64x1x128x100.ShapeCasts S64x128x100) (b : Fin 64) (t : Fin 128)
    (r : Fin 100) : shapeCast S64x128x100 a2 h (ix3 b t r) = a2 (ix4 b (0 : Fin 1) t r) :=
  shapeCast_apply a2 h _ _ (by
    rw [Shape.rowMajor_val_four, Shape.rowMajor_val_three]
    show ((b.val * 1 + 0) * 128 + t.val) * 100 + r.val = (b.val * 128 + t.val) * 100 + r.val
    rw [Nat.mul_one, Nat.add_zero])

/-- The weight with its unit axis dropped. -/
theorem weight_apply (a5 : S1x768x768.Idx → EReal) (h : S1x768x768.ShapeCasts S768x768) (d e : Fin 768) :
    shapeCast S768x768 a5 h (ix2 d e) = a5 (ix3 (0 : Fin 1) d e) :=
  shapeCast_1ab_ab_apply a5 h d e

end Cert.KernelIdeal.Entry

end
-- ==== Proof.KernelArray.lean ====
/-
  From the blocks to the whole result array.

  The grid has eight points; point `t` handles batches `8t … 8t + 7`. Its token block is rows
  `1024t … 1024t + 1023` of the flattened token features, its region block rows `800t … 800t + 799` of the flattened
  region features, its mask and output blocks the slabs `8t … 8t + 7` of the `[64, 128, 100]` arrays; the projection
  matrix, the two biases and the weight are whole at every point. Read through these windows and through the
  re-layings before the region, batch `k` of point `t` is batch `8t + k` of the arguments, so what point `t` writes
  back is block `t` of the score of the argument arrays (`Cert.Score.outK`). The eight output blocks tile the result,
  so after the run the result array is that function.
-/
import proofs.«172141_j21792664060129_2_alg».proof.Proof.Gen.KernelIdeal.Value
import proofs.«172141_j21792664060129_2_alg».proof.Proof.KernelBlock
import proofs.«172141_j21792664060129_2_alg».proof.Proof.EntryArrays

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The printed index maps, decided over the eight grid points -/

theorem idx_tokens : ∀ t : Fin cfg0.N, win0_0.index t (0 : Fin 2) = t.val ∧ win0_0.index t (1 : Fin 2) = 0 :=
  (by decide +kernel : ∀ t : Fin grid0.N, _)
theorem idx_regions : ∀ t : Fin cfg0.N, win0_1.index t (0 : Fin 2) = t.val ∧ win0_1.index t (1 : Fin 2) = 0 :=
  (by decide +kernel : ∀ t : Fin grid0.N, _)
theorem idx_projw : ∀ t : Fin cfg0.N, win0_2.index t (0 : Fin 2) = 0 ∧ win0_2.index t (1 : Fin 2) = 0 :=
  (by decide +kernel : ∀ t : Fin grid0.N, _)
theorem idx_projb : ∀ t : Fin cfg0.N, win0_3.index t (0 : Fin 1) = 0 ∧ True :=
  (by decide +kernel : ∀ t : Fin grid0.N, _)
theorem idx_weight : ∀ t : Fin cfg0.N, win0_4.index t (0 : Fin 2) = 0 ∧ win0_4.index t (1 : Fin 2) = 0 :=
  (by decide +kernel : ∀ t : Fin grid0.N, _)
theorem idx_bias : ∀ t : Fin cfg0.N, win0_5.index t (0 : Fin 1) = 0 ∧ True :=
  (by decide +kernel : ∀ t : Fin grid0.N, _)
theorem idx_mask : ∀ t : Fin cfg0.N, win0_6.index t (0 : Fin 3) = t.val ∧ win0_6.index t (1 : Fin 3) = 0
    ∧ win0_6.index t (2 : Fin 3) = 0 :=
  (by decide +kernel : ∀ t : Fin grid0.N, _)
theorem idx_out : ∀ t : Fin cfg0.N, win0_7.index t (0 : Fin 3) = t.val ∧ win0_7.index t (1 : Fin 3) = 0
    ∧ win0_7.index t (2 : Fin 3) = 0 :=
  (by decide +kernel : ∀ t : Fin grid0.N, _)

/-! ## Where a block's element sits in its array -/

/-- Batch `k` of grid point `t` is batch `8t + k`. -/
def batch (t : Fin cfg0.N) (k : Fin 8) : Fin 64 :=
  ⟨t.val * 8 + k.val, by have hN : cfg0.N = 8 := N_0; have := t.isLt; have := k.isLt; omega⟩

/-- Token row `k·128 + tk` of point `t`'s block is row `(8t + k)·128 + tk` of the flattened token features. -/
theorem emb_tokens (t : Fin cfg0.N) (k : Fin 8) (tk : Fin 128) (d : Fin 768) (q : Fin 8192) (hq : q.val = (t.val * 8 + k.val) * 128 + tk.val) :
    ((cfg0.win 0).blk t).view.emb (ix2 (Block.tokRow k tk) d) = (ix2 q d : S8192x768.Idx) := by
  have hN : cfg0.N = 8 := N_0
  have ht := t.isLt
  obtain ⟨e0, e1⟩ := idx_tokens t
  funext a; apply Fin.ext
  match a with
  | ⟨0, _⟩ => show win0_0.index t (0 : Fin 2) * 1024 + 1 * (k.val * 128 + tk.val) = q.val; omega
  | ⟨1, _⟩ => show win0_0.index t (1 : Fin 2) * 768 + 1 * d.val = d.val; omega

/-- Region row `k·100 + r` of point `t`'s block is row `(8t + k)·100 + r` of the flattened region features. -/
theorem emb_regions (t : Fin cfg0.N) (k : Fin 8) (r : Fin 100) (i : Fin 2048) (q : Fin 6400) (hq : q.val = (t.val * 8 + k.val) * 100 + r.val) :
    ((cfg0.win 1).blk t).view.emb (ix2 (Block.regRow k r) i) = (ix2 q i : S6400x2048.Idx) := by
  have hN : cfg0.N = 8 := N_0
  have ht := t.isLt
  obtain ⟨e0, e1⟩ := idx_regions t
  funext a; apply Fin.ext
  match a with
  | ⟨0, _⟩ => show win0_1.index t (0 : Fin 2) * 800 + 1 * (k.val * 100 + r.val) = q.val; omega
  | ⟨1, _⟩ => show win0_1.index t (1 : Fin 2) * 2048 + 1 * i.val = i.val; omega

/-- The projection matrix's block is the whole matrix. -/
theorem emb_projw (t : Fin cfg0.N) (e : Fin 768) (i : Fin 2048) :
    ((cfg0.win 2).blk t).view.emb (ix2 e i) = (ix2 e i : S768x2048.Idx) := by
  have hN : cfg0.N = 8 := N_0
  have ht := t.isLt
  obtain ⟨e0, e1⟩ := idx_projw t
  funext a; apply Fin.ext
  match a with
  | ⟨0, _⟩ => show win0_2.index t (0 : Fin 2) * 768 + 1 * e.val = e.val; omega
  | ⟨1, _⟩ => show win0_2.index t (1 : Fin 2) * 2048 + 1 * i.val = i.val; omega

/-- The projection bias's block is the whole vector. -/
theorem emb_projb (t : Fin cfg0.N) (e : Fin 768) :
    ((cfg0.win 3).blk t).view.emb (ix1 e) = (ix1 e : S768.Idx) := by
  have hN : cfg0.N = 8 := N_0
  have ht := t.isLt
  obtain ⟨e0⟩ := idx_projb t
  funext a; apply Fin.ext
  match a with
  | ⟨0, _⟩ => show win0_3.index t (0 : Fin 1) * 768 + 1 * e.val = e.val; omega

/-- The weight's block is the whole weight. -/
theorem emb_weight (t : Fin cfg0.N) (d e : Fin 768) :
    ((cfg0.win 4).blk t).view.emb (ix2 d e) = (ix2 d e : S768x768.Idx) := by
  have hN : cfg0.N = 8 := N_0
  have ht := t.isLt
  obtain ⟨e0, e1⟩ := idx_weight t
  funext a; apply Fin.ext
  match a with
  | ⟨0, _⟩ => show win0_4.index t (0 : Fin 2) * 768 + 1 * d.val = d.val; omega
  | ⟨1, _⟩ => show win0_4.index t (1 : Fin 2) * 768 + 1 * e.val = e.val; omega

/-- The scalar bias's block is the whole one-entry array. -/
theorem emb_bias (t : Fin cfg0.N) (u : Fin 1) :
    ((cfg0.win 5).blk t).view.emb (ix1 u) = (ix1 u : S1.Idx) := by
  have hN : cfg0.N = 8 := N_0
  have ht := t.isLt
  obtain ⟨e0⟩ := idx_bias t
  funext a; apply Fin.ext
  match a with
  | ⟨0, _⟩ => show win0_5.index t (0 : Fin 1) * 1 + 1 * u.val = u.val; omega

/-- Slab `k` of point `t`'s mask block is slab `8t + k` of the mask. -/
theorem emb_mask (t : Fin cfg0.N) (k : Fin 8) (tk : Fin 128) (r : Fin 100) :
    ((cfg0.win 6).blk t).view.emb (ix3 k tk r) = (ix3 (batch t k) tk r : S64x128x100.Idx) := by
  have hN : cfg0.N = 8 := N_0
  have ht := t.isLt
  obtain ⟨e0, e1, e2⟩ := idx_mask t
  funext a; apply Fin.ext
  match a with
  | ⟨0, _⟩ => show win0_6.index t (0 : Fin 3) * 8 + 1 * k.val = t.val * 8 + k.val; omega
  | ⟨1, _⟩ => show win0_6.index t (1 : Fin 3) * 128 + 1 * tk.val = tk.val; omega
  | ⟨2, _⟩ => show win0_6.index t (2 : Fin 3) * 100 + 1 * r.val = r.val; omega

/-- Slab `k` of point `t`'s output block is slab `8t + k` of the result. -/
theorem emb_out (t : Fin cfg0.N) (k : Fin 8) (tk : Fin 128) (r : Fin 100) :
    ((cfg0.win 7).blk t).view.emb (ix3 k tk r) = (ix3 (batch t k) tk r : S64x128x100.Idx) := by
  have hN : cfg0.N = 8 := N_0
  have ht := t.isLt
  obtain ⟨e0, e1, e2⟩ := idx_out t
  funext a; apply Fin.ext
  match a with
  | ⟨0, _⟩ => show win0_7.index t (0 : Fin 3) * 8 + 1 * k.val = t.val * 8 + k.val; omega
  | ⟨1, _⟩ => show win0_7.index t (1 : Fin 3) * 128 + 1 * tk.val = tk.val; omega
  | ⟨2, _⟩ => show win0_7.index t (2 : Fin 3) * 100 + 1 * r.val = r.val; omega

/-! ## Each window's block, read in terms of the program's arguments -/

theorem read_tokens (c : Dev nD) (t : Fin cfg0.N) (k : Fin 8) (tk : Fin 128) (d : Fin 768) :
    iblk m c 0 t (ix2 (Block.tokRow k tk) d) = m ((c : Thread nD τ).loc main_arg0) (ix3 (batch t k) tk d) := by
  show V m c main_v0 (((cfg0.win 0).blk t).view.emb (ix2 (Block.tokRow k tk) d)) = _
  rw [emb_tokens t k tk d ⟨(t.val * 8 + k.val) * 128 + tk.val, by
    have hN : cfg0.N = 8 := N_0; have := t.isLt; have := k.isLt; have := tk.isLt; omega⟩ rfl, Entry.V_v0]
  exact Entry.tokens_apply _ _ _ (batch t k) tk d rfl

theorem read_regions (c : Dev nD) (t : Fin cfg0.N) (k : Fin 8) (r : Fin 100) (i : Fin 2048) :
    iblk m c 1 t (ix2 (Block.regRow k r) i) = m ((c : Thread nD τ).loc main_arg1) (ix3 (batch t k) r i) := by
  show V m c main_v1 (((cfg0.win 1).blk t).view.emb (ix2 (Block.regRow k r) i)) = _
  rw [emb_regions t k r i ⟨(t.val * 8 + k.val) * 100 + r.val, by
    have hN : cfg0.N = 8 := N_0; have := t.isLt; have := k.isLt; have := r.isLt; omega⟩ rfl, Entry.V_v1]
  exact Entry.regions_apply _ _ _ (batch t k) r i rfl

theorem read_projw (c : Dev nD) (t : Fin cfg0.N) (e : Fin 768) (i : Fin 2048) :
    iblk m c 2 t (ix2 e i) = m ((c : Thread nD τ).loc main_arg3) (ix2 e i) := by
  show V m c main_arg3 (((cfg0.win 2).blk t).view.emb (ix2 e i)) = _
  rw [emb_projw t e i, V_main_arg3]

theorem read_projb (c : Dev nD) (t : Fin cfg0.N) (e : Fin 768) :
    iblk m c 3 t (ix1 e) = m ((c : Thread nD τ).loc main_arg4) (ix1 e) := by
  show V m c main_arg4 (((cfg0.win 3).blk t).view.emb (ix1 e)) = _
  rw [emb_projb t e, V_main_arg4]

theorem read_weight (c : Dev nD) (t : Fin cfg0.N) (d e : Fin 768) :
    iblk m c 4 t (ix2 d e) = m ((c : Thread nD τ).loc main_arg5) (ix3 (0 : Fin 1) d e) := by
  show V m c main_v3 (((cfg0.win 4).blk t).view.emb (ix2 d e)) = _
  rw [emb_weight t d e, Entry.V_v3]
  exact Entry.weight_apply _ _ d e

theorem read_bias (c : Dev nD) (t : Fin cfg0.N) :
    iblk m c 5 t (ix1 (0 : Fin 1)) = m ((c : Thread nD τ).loc main_arg6) (ix1 (0 : Fin 1)) := by
  show V m c main_arg6 (((cfg0.win 5).blk t).view.emb (ix1 (0 : Fin 1))) = _
  rw [emb_bias t 0, V_main_arg6]

theorem read_mask (c : Dev nD) (t : Fin cfg0.N) (k : Fin 8) (tk : Fin 128) (r : Fin 100) :
    iblk m c 6 t (ix3 k tk r) = m ((c : Thread nD τ).loc main_arg2) (ix4 (batch t k) (0 : Fin 1) tk r) := by
  show V m c main_v2 (((cfg0.win 6).blk t).view.emb (ix3 k tk r)) = _
  rw [emb_mask t k tk r, Entry.V_v2]
  exact Entry.mask_apply _ _ (batch t k) tk r

/-! ## What each point writes back, the cover, and the run -/

/-- The result array as one function of the argument arrays. -/
def outArr (c : Dev nD) : S64x128x100.Idx → EReal :=
  Cert.Score.outK (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Two bilinear forms over equal rows are equal. -/
theorem formK_congr {T T' : Fin 768 → EReal} {W W' : Fin 768 → Fin 768 → EReal} {X X' : Fin 2048 → EReal}
    {K K' : Fin 768 → Fin 2048 → EReal} {b b' : Fin 768 → EReal} (hT : T = T') (hW : W = W') (hX : X = X') (hK : K = K')
    (hb : b = b') : Cert.Score.formK T W X K b = Cert.Score.formK T' W' X' K' b' := by
  subst hT hW hX hK hb; rfl

/-- WHAT POINT `t` WRITES BACK is block `t` of the score of the argument arrays. -/
theorem flushed_eq (c : Dev nD) (t : Fin cfg0.N) :
    (dats m 0 c).flushed 7 t = ((cfg0.win 7).blk t).view.read (Elt Ideal) (outArr m c) := by
  rw [Value.flushed7, Block.out_eq (iblk m c 0 t) (iblk m c 1 t) (iblk m c 2 t) (iblk m c 3 t) (iblk m c 4 t)
    (iblk m c 5 t) (iblk m c 6 t)]
  funext y
  obtain ⟨k, tk, r, rfl⟩ : ∃ (k : Fin 8) (tk : Fin 128) (r : Fin 100), y = ix3 k tk r := ⟨y 0, y 1, y 2, eq_ix3 y⟩
  show Block.blockAt (iblk m c 0 t) (iblk m c 1 t) (iblk m c 2 t) (iblk m c 3 t) (iblk m c 4 t) (iblk m c 5 t)
      (iblk m c 6 t) k tk r = outArr m c (((cfg0.win 7).blk t).view.emb (ix3 k tk r))
  rw [emb_out t k tk r]
  show _ = Cert.Score.atK _ _ _ _ _ _ _ (batch t k) tk r
  unfold Block.blockAt Cert.Score.atK
  refine congrArg₂ (· + ·) (congrArg₂ (· + ·) (formK_congr ?_ ?_ ?_ ?_ ?_) ?_) ?_
  · exact funext fun d => read_tokens m c t k tk d
  · exact funext fun d => funext fun e => read_weight m c t d e
  · exact funext fun i => read_regions m c t k r i
  · exact funext fun e => funext fun i => read_projw m c t e i
  · exact funext fun e => read_projb m c t e
  · exact read_bias m c t
  · exact read_mask m c t k tk r

/-- An index of the result is in point `t`'s block iff each coordinate is in the block's range on its axis. -/
theorem mem_blk (t : Fin cfg0.N) (i : S64x128x100.Idx) :
    i ∈ ((cfg0.win 7).blk t).view.set ↔ ∀ a : Fin 3, win0_7.index t a * S8x128x100.size a ≤ (i a).val
      ∧ (i a).val < win0_7.index t a * S8x128x100.size a + S8x128x100.size a := by
  show i ∈ ((View.whole main_v4).slice (win0_7.rect t)).set ↔ _
  rw [View.set_slice_whole, Rect.mem_set_unit]
  exact Iff.rfl

/-- Every index of the result is in the block of the point that handles its batch. -/
theorem cover (i : S64x128x100.Idx) :
    ∃ t : Fin cfg0.N, (cfg0.win 7).flush t = true ∧ i ∈ ((cfg0.win 7).blk t).view.set := by
  have hi0 : (i 0).val < 64 := (i 0).isLt
  have hi1 : (i 1).val < 128 := (i 1).isLt
  have hi2 : (i 2).val < 100 := (i 2).isLt
  have hN : cfg0.N = 8 := N_0
  obtain ⟨t, ht⟩ : ∃ t : Fin cfg0.N, t.val = (i 0).val / 8 := ⟨⟨(i 0).val / 8, by omega⟩, rfl⟩
  obtain ⟨e0, e1, e2⟩ := idx_out t
  refine ⟨t, flush0_7 t, ?_⟩
  rw [mem_blk]
  intro a
  match a with
  | ⟨0, _⟩ =>
    show win0_7.index t (0 : Fin 3) * 8 ≤ (i 0).val ∧ (i 0).val < win0_7.index t (0 : Fin 3) * 8 + 8
    omega
  | ⟨1, _⟩ =>
    show win0_7.index t (1 : Fin 3) * 128 ≤ (i 1).val ∧ (i 1).val < win0_7.index t (1 : Fin 3) * 128 + 128
    omega
  | ⟨2, _⟩ =>
    show win0_7.index t (2 : Fin 3) * 100 ≤ (i 2).val ∧ (i 2).val < win0_7.index t (2 : Fin 3) * 100 + 100
    omega

/-- THE RESULT ARRAY after the run is the score of the argument arrays. -/
theorem final (c : Dev nD) : (dats m 0 c).arrAt 7 cfg0.N = outArr m c :=
  (dats m 0 c).arrAt_eq_of_cover 7 (outArr m c) (fun t _ => flushed_eq m c t) cover

/-- The kernel's run: every weakly fair execution terminates with the result at the score of the arguments and the
    arguments unchanged. -/
theorem run : θ_run defs (onTc (τ := τ) (main (F := Ideal))) ⟨m, fun _ => 0, ρ⟩ fun r => ∀ c : Dev nD,
      r.2.mem ((c : Thread nD τ).loc main_v4) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefScore.lean ====
/-
  The reference's result is the score contracted weight-against-region first.

  Read one operation at a time, the reference projects the region features (`encI · K_wᵀ + K_b`), contracts the
  projected rows against the square weight (`v5[b, r, d] = ∑ e, proj b r e · bil_w[0, d, e]`), contracts the token
  rows against that (`v6[b, t, r] = ∑ d, encT[b, t, d] · v5[b, r, d]`), and adds the scalar bias and the mask with
  its unit axis dropped. Index by index this is `Cert.Score.outR`: the only work is to name, by coordinates, the
  operand index each operation reads (the two reshapes keep the row-major position, which fixes their coordinates).
-/
import proofs.«172141_j21792664060129_2_alg».proof.Proof.Gen.ReferenceIdeal.Read
import proofs.«172141_j21792664060129_2_alg».proof.Proof.Score

noncomputable section

open scoped BigOperators

namespace Cert.ReferenceIdeal.RefScore

open Cert.ReferenceIdeal Cert.ReferenceIdeal.Gen Cert.ReferenceIdeal.Read Idealize.ShloMosaic Idealize.ShloMosaic.ValueIdx

/-! ## The operand index each operation reads, by coordinates -/

/-- The last contraction reads token row `(b, t)` at `d` … -/
theorem lidx6 (b : Fin 64) (t : Fin 128) (r : Fin 100) (d : Fin 768) : lidx_main_v6 (ix3 b t r) d = ix3 b t d :=
  funext fun a => Fin.ext (by match a with | ⟨0, _⟩ => rfl | ⟨1, _⟩ => rfl | ⟨2, _⟩ => rfl)
/-- … against the weighted region row `(b, r)` at `d`. -/
theorem ridx6 (b : Fin 64) (t : Fin 128) (r : Fin 100) (d : Fin 768) : ridx_main_v6 (ix3 b t r) d = ix3 b r d :=
  funext fun a => Fin.ext (by match a with | ⟨0, _⟩ => rfl | ⟨1, _⟩ => rfl | ⟨2, _⟩ => rfl)
/-- The middle contraction reads the projected region row `(b, r)` at `e` … -/
theorem lidx5 (b : Fin 64) (r : Fin 100) (d e : Fin 768) : lidx_main_v5 (ix3 b r d) e = ix3 b r e :=
  funext fun a => Fin.ext (by match a with | ⟨0, _⟩ => rfl | ⟨1, _⟩ => rfl | ⟨2, _⟩ => rfl)
/-- … against the square weight at `(d, e)`. -/
theorem ridx5 (b : Fin 64) (r : Fin 100) (d e : Fin 768) : ridx_main_v5 (ix3 b r d) e = ix2 d e :=
  funext fun a => Fin.ext (by match a with | ⟨0, _⟩ => rfl | ⟨1, _⟩ => rfl)
/-- The projection reads the raw region row `(b, r)` at `i` … -/
theorem lidx0 (b : Fin 64) (r : Fin 100) (e : Fin 768) (i : Fin 2048) : lidx_main_v0 (ix3 b r e) i = ix3 b r i :=
  funext fun a => Fin.ext (by match a with | ⟨0, _⟩ => rfl | ⟨1, _⟩ => rfl | ⟨2, _⟩ => rfl)
/-- … against the projection matrix at `(e, i)`. -/
theorem ridx0 (b : Fin 64) (r : Fin 100) (e : Fin 768) (i : Fin 2048) : ridx_main_v0 (ix3 b r e) i = ix2 e i :=
  funext fun a => Fin.ext (by match a with | ⟨0, _⟩ => rfl | ⟨1, _⟩ => rfl)
/-- The bias, broadcast along batch and region, is read at `e`. -/
theorem idx21 (b : Fin 64) (r : Fin 100) (e : Fin 768) : idx_main_v1 (idx_main_v2 (ix3 b r e)) = ix1 e :=
  funext fun a => Fin.ext (by match a with | ⟨0, _⟩ => rfl)
/-- The square weight is the `[1, 768, 768]` argument with its unit axis dropped: `(d, e)` reads `(0, d, e)`. -/
theorem idx4 (d e : Fin 768) : idx_main_v4 (ix2 d e) = ix3 (0 : Fin 1) d e :=
  funext fun a => Fin.ext (by
    have hd : d.val < 768 := d.isLt
    have he : e.val < 768 := e.isLt
    match a with
    | ⟨0, _⟩ => rfl
    | ⟨1, _⟩ => show (d.val * 768 + e.val) / 768 % 768 = d.val; omega
    | ⟨2, _⟩ => show (d.val * 768 + e.val) % 768 = e.val; omega)
/-- The mask with its unit axis dropped: `(b, t, r)` reads `(b, 0, t, r)`. -/
theorem idx10 (b : Fin 64) (t : Fin 128) (r : Fin 100) : idx_main_v10 (ix3 b t r) = ix4 b (0 : Fin 1) t r :=
  funext fun a => Fin.ext (by
    have hb : b.val < 64 := b.isLt
    have ht : t.val < 128 := t.isLt
    have hr : r.val < 100 := r.isLt
    match a with
    | ⟨0, _⟩ => show ((b.val * 128 + t.val) * 100 + r.val) / 12800 = b.val; omega
    | ⟨1, _⟩ => rfl
    | ⟨2, _⟩ => show ((b.val * 128 + t.val) * 100 + r.val) / 100 % 128 = t.val; omega
    | ⟨3, _⟩ => show ((b.val * 128 + t.val) * 100 + r.val) % 100 = r.val; omega)

/-- The scalar bias: the one-entry argument reshaped to rank 0 reads its one entry. -/
theorem val7 (x6 : S1.Idx → EReal) (i : S_.Idx) : val_main_v7 (F := Ideal) x6 i = x6 (ix1 (0 : Fin 1)) := by
  unfold val_main_v7 shapeCast
  refine congrArg x6 (funext fun a => Fin.ext ?_)
  match a with
  | ⟨0, _⟩ =>
    have h := (Shape.reshapeEquiv shapeCasts_S1_S_ i (0 : Fin 1)).isLt
    show (Shape.reshapeEquiv shapeCasts_S1_S_ i (0 : Fin 1)).val = 0
    have h' : (Shape.reshapeEquiv shapeCasts_S1_S_ i (0 : Fin 1)).val < 1 := h
    omega

/-! ## The reference's term -/

/-- The reference's result, index by index, is `outR` of its seven arguments. -/
theorem result_eq (x0 : S64x128x768.Idx → EReal) (x1 : S64x100x2048.Idx → EReal) (x2 : S64x1x128x100.Idx → EReal)
    (x3 : S768x2048.Idx → EReal) (x4 : S768.Idx → EReal) (x5 : S1x768x768.Idx → EReal) (x6 : S1.Idx → EReal) :
    val_main_v11 (F := Ideal) x0 x1 x2 x3 x4 x5 x6 = Cert.Score.outR x0 x1 x2 x3 x4 x5 x6 := by
  funext j
  obtain ⟨b, t, r, rfl⟩ : ∃ (b : Fin 64) (t : Fin 128) (r : Fin 100), j = ix3 b t r := ⟨j 0, j 1, j 2, eq_ix3 j⟩
  rw [val_main_v11_apply, val_main_v9_apply, val_main_v6_apply, val_main_v8_apply, val_main_v10_apply, val7, idx10]
  simp only [lidx6, ridx6, val_main_v5_apply, lidx5, ridx5, val_main_v4_apply, idx4, val_main_v3_apply,
    val_main_v0_apply, lidx0, ridx0, val_main_v2_apply, val_main_v1_apply, idx21]
  rfl

end Cert.ReferenceIdeal.RefScore

end
-- ==== Proof.FiniteInputs.lean ====
/-
  What the precondition says: every entry of every argument is a real number.

  The precondition is the conjunction, over the seven arguments, of "every entry's absolute value is below
  +infinity". An extended real whose absolute value `max x (-x)` is strictly below the top element is neither the
  top nor the bottom element, so it is a real number. The conjunction is seven reductions by `and` joined by six
  more `and`s; each is opened in turn.
-/
import proofs.«172141_j21792664060129_2_alg».proof.Pre_finite_inputs
import proofs.«172141_j21792664060129_2_alg».proof.Proof.Gen.Pre_finite_inputs
import proofs.«172141_j21792664060129_2_alg».proof.Proof.Score
import Idealize.ShloMosaic.Lib.ReduceAll
import Idealize.ShloMosaic.Lib.Pipeline.Value
import Idealize.ShloMosaic.Lib.ValueIdx

noncomputable section

namespace Cert.Pre_finite_inputs.Finite

open Cert.Pre_finite_inputs Cert.Pre_finite_inputs.Gen Idealize.ShloMosaic Idealize.ShloMosaic.ValueIdx

/-- The rank-0 shape has one index. -/
instance : Subsingleton S_.Idx := ⟨fun _ _ => funext fun d => d.elim0⟩

/-- The pattern the precondition compares against denotes the top element. -/
theorem inf_bits : Ideal.ofBits .f32 0x7F800000#32 = (⊤ : EReal) := by simp [Ideal.ofBits, Ideal.ieee]

/-- An extended real whose absolute value is strictly below the top element is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One conjunct: an array all of whose entries have absolute value below +infinity has only real entries. -/
theorem allReal_of_all {s : Shape} {axes : List (Fin s.rank)} (a : FVec Ideal s .f32)
    (bc : S_.BroadcastsInDim s (![] : Fin 0 → Fin s.rank)) (red : s.ReducesTo axes S_) (hu : 0 < S_.numel)
    (e : Host.reduce IntOp.andi
        (cmpf .olt (Host.absf a) (broadcastInDim s ![] bc (constant (F := Ideal) S_ .f32 0x7F800000#32)))
        (constantI S_ 1 1#1) red hu ix0 = 1#1) :
    Cert.Score.AllReal a := by
  intro i
  have h := Host.reduce_andi_all _ _ red hu ix0 e i
  have hb : broadcastInDim s ![] bc (constant (F := Ideal) S_ .f32 0x7F800000#32) i = (⊤ : EReal) :=
    (broadcastInDim_apply _ bc _ i ix0 (fun a => a.elim0)).trans inf_bits
  rw [cmpf_apply, hb] at h
  exact real_of_abs_lt_top (a i) h

/-- The precondition gives all seven. -/
theorem allReal (a0 : FVec Ideal S64x128x768 .f32) (a1 : FVec Ideal S64x100x2048 .f32) (a2 : FVec Ideal S64x1x128x100 .f32)
    (a3 : FVec Ideal S768x2048 .f32) (a4 : FVec Ideal S768 .f32) (a5 : FVec Ideal S1x768x768 .f32) (a6 : FVec Ideal S1 .f32)
    (h : fn (F := Ideal) a0 a1 a2 a3 a4 a5 a6 = fun _ => 1#1) :
    Cert.Score.AllReal a0 ∧ Cert.Score.AllReal a1 ∧ Cert.Score.AllReal a2 ∧ Cert.Score.AllReal a3
      ∧ Cert.Score.AllReal a4 ∧ Cert.Score.AllReal a5 ∧ Cert.Score.AllReal a6 := by
  have h0 := congrFun h ix0
  unfold fn fn_part1 at h0
  obtain ⟨h0, e6⟩ := IntOp.andi_eq_one.1 (show IntOp.andi _ _ = 1#1 from h0)
  obtain ⟨h0, e5⟩ := IntOp.andi_eq_one.1 (show IntOp.andi _ _ = 1#1 from h0)
  obtain ⟨h0, e4⟩ := IntOp.andi_eq_one.1 (show IntOp.andi _ _ = 1#1 from h0)
  obtain ⟨h0, e3⟩ := IntOp.andi_eq_one.1 (show IntOp.andi _ _ = 1#1 from h0)
  obtain ⟨h0, e2⟩ := IntOp.andi_eq_one.1 (show IntOp.andi _ _ = 1#1 from h0)
  obtain ⟨e0, e1⟩ := IntOp.andi_eq_one.1 (show IntOp.andi _ _ = 1#1 from h0)
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6⟩

end Cert.Pre_finite_inputs.Finite

end
-- ==== Proof.lean ====
/-
  Token–region bilinear scores: a batched kernel against its einsum reference, equal over the extended reals on finite
  inputs.

  Both programs compute, for batch `b`, token `t` and region `r`,
    `∑ d e, encT[b, t, d] · bil_w[0, d, e] · (∑ i, encI[b, r, i] · K_w[e, i] + K_b[e]) + bil_b[0] + mask[b, 0, t, r]`.
  The kernel handles eight batches per grid point: it projects the stacked region rows, multiplies the stacked token
  rows by the weight, and then pairs the two batch by batch — the token row is contracted against the weight FIRST.
  The reference contracts the weight against the projected region rows first and the token rows against the result.
  At the ideal instance a change of float format is the identity and every matrix product is a plain sum, so each side
  is one of the two orders of the same double sum; the two orders agree when multiplication distributes over the
  sums, which on the extended reals needs every entry to be a real number — what the precondition says of every
  argument.

  The three frames are the generated ones (the reference's is its generated run with the result dropped); the
  idealization rewrote nothing, so `preserves` has nothing to show; `algebraic` sets the kernel's run — its result
  array read block by block back to one function of the arguments (Proof/KernelBlock, Proof/EntryArrays,
  Proof/KernelArray) — beside the reference's run read operation by operation (Proof/RefScore), and joins the two
  orders on the real entries the precondition gives (Proof/FiniteInputs, Proof/Score, Proof/ScoreOrder).
-/
import proofs.«172141_j21792664060129_2_alg».proof.Defs
import proofs.«172141_j21792664060129_2_alg».proof.Proof.Gen.Kernel
import proofs.«172141_j21792664060129_2_alg».proof.Proof.Gen.Kernel.Skeleton
import proofs.«172141_j21792664060129_2_alg».proof.Proof.Gen.Kernel.Launch
import proofs.«172141_j21792664060129_2_alg».proof.Proof.Gen.Kernel.Points
import proofs.«172141_j21792664060129_2_alg».proof.Proof.Gen.Kernel.Frame
import proofs.«172141_j21792664060129_2_alg».proof.Proof.Gen.KernelIdeal
import proofs.«172141_j21792664060129_2_alg».proof.Proof.Gen.KernelIdeal.Skeleton
import proofs.«172141_j21792664060129_2_alg».proof.Proof.Gen.KernelIdeal.Launch
import proofs.«172141_j21792664060129_2_alg».proof.Proof.Gen.KernelIdeal.Points
import proofs.«172141_j21792664060129_2_alg».proof.Proof.Gen.KernelIdeal.Frame
import proofs.«172141_j21792664060129_2_alg».proof.Proof.Gen.ReferenceIdeal
import proofs.«172141_j21792664060129_2_alg».proof.Proof.Gen.Pre_finite_inputs
import proofs.«172141_j21792664060129_2_alg».proof.Proof.Gen.KernelIdeal.Value
import proofs.«172141_j21792664060129_2_alg».proof.Proof.Gen.ReferenceIdeal.Run
import proofs.«172141_j21792664060129_2_alg».proof.Proof.Gen.ReferenceIdeal.Read
import proofs.«172141_j21792664060129_2_alg».proof.Proof.KernelArray
import proofs.«172141_j21792664060129_2_alg».proof.Proof.RefScore
import proofs.«172141_j21792664060129_2_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the score of the arguments: the kernel with the
    token rows contracted against the weight first, the reference with the weight contracted against the projected
    region rows first — one function on the real entries the precondition gives. -/
theorem algebraic : Cert.algebraic_KernelIdeal_ReferenceIdeal := by
  intro m ρ m' ρ' hpre hagree
  refine ⟨fun c => Cert.KernelIdeal.Whole.outArr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, -⟩ := Cert.Pre_finite_inputs.Finite.allReal _ _ _ _ _ _ _ (hpre c)
  rw [Cert.ReferenceIdeal.Read.val_main_v11_eq, Cert.ReferenceIdeal.RefScore.result_eq, (hagree c).1, (hagree c).2.1,
    (hagree c).2.2.1, (hagree c).2.2.2.1, (hagree c).2.2.2.2.1, (hagree c).2.2.2.2.2.1, (hagree c).2.2.2.2.2.2]
  exact Cert.Score.outR_eq_outK _ _ _ _ _ _ _ h0 h1 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
